-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S128 .f32) (main_arg6 : FVec F S128x2 .f32) (main_arg7 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x2 .f32 := Host.absf main_arg6
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x2 .f32) (main_arg7 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S4000x128 : Shape := ⟨2, ![4000, 128]⟩
abbrev S4000x1 : Shape := ⟨2, ![4000, 1]⟩
abbrev S1700000x128 : Shape := ⟨2, ![1700000, 128]⟩
abbrev S1x128 : Shape := ⟨2, ![1, 128]⟩
abbrev S1x2 : Shape := ⟨2, ![1, 2]⟩
abbrev S100000x2 : Shape := ⟨2, ![100000, 2]⟩
abbrev S4000x2 : Shape := ⟨2, ![4000, 2]⟩
abbrev S4000 : Shape := ⟨1, ![4000]⟩

abbrev nBuf : Space → Nat
  | .hbm => 62
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x2, .f32⟩
  | .hbm, ⟨7, _⟩ => ⟨S2, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000x128, .f32⟩
  | .hbm, ⟨40, _⟩ => ⟨S_, .f32⟩
  | .hbm, ⟨41, _⟩ => ⟨S100000x128, .f32⟩
  | .hbm, ⟨42, _⟩ => ⟨S1700000x1, .i32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x128, .f32⟩
  | .hbm, ⟨55, _⟩ => ⟨S_, .f32⟩
  | .hbm, ⟨56, _⟩ => ⟨S100000x128, .f32⟩
  | .hbm, ⟨57, _⟩ => ⟨S1700000x1, .i32⟩
  | .hbm, ⟨58, _⟩ => ⟨S100000x128, .f32⟩
  | .hbm, ⟨59, _⟩ => ⟨S1x128, .f32⟩
  | .hbm, ⟨60, _⟩ => ⟨S1x2, .f32⟩
  | .hbm, ⟨61, _⟩ => ⟨S100000x2, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x1, .f32⟩
  | .local _ .vmem, ⟨4, _⟩ => ⟨S4000x1, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x1, .f32⟩
  | .local _ .vmem, ⟨10, _⟩ => ⟨S4000x1, .f32⟩
  | .local _ .vmem, ⟨11, _⟩ => ⟨S1x128, .f32⟩
  | .local _ .vmem, ⟨12, _⟩ => ⟨S128x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x1, .f32⟩
  | .local _ .vmem, ⟨18, _⟩ => ⟨S4000x1, .f32⟩
  | .local _ .vmem, ⟨19, _⟩ => ⟨S1x128, .f32⟩
  | .local _ .vmem, ⟨20, _⟩ => ⟨S128x2, .f32⟩
  | .local _ .vmem, ⟨21, _⟩ => ⟨S1x2, .f32⟩
  | .local _ .vmem, ⟨22, _⟩ => ⟨S4000x2, .f32⟩
  | .local _ .vmem, ⟨23, _⟩ => ⟨S4000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x2 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S2_S1x2 : S2.ShapeCasts S1x2
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4000x2 : S1x2.Broadcasts S4000x2
  reduces_S4000x2_S4000 : S4000x2.Reduces [1] S4000
  shapeCasts_S4000_S4000x1 : S4000.ShapeCasts S4000x1
  broadcasts_S4000x1_S4000x2 : S4000x1.Broadcasts S4000x2
  inb_S4000x2_S4000x2_0_0 : ∀ a, (![0, 0] : Fin 2 → Nat) a + S4000x2.size a ≤ S4000x2.size a
  h_S4000x2 : 0 < S4000x2.numel
  scatter_S100000_S1700000x1_S1700000_n_0_0_1_wf : ScatterDims.WF S100000 S1700000x1 S1700000 [] [0] [0] 1
  dot_S4000x128_S128x128_S4000x128_1_0_0_1_n_n_wf : DotDims.WF S4000x128 S128x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x2_S4000x2_1_0_0_1_n_n_wf : DotDims.WF S4000x128 S128x2 S4000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .f32 = 32 ∨ (Rect.block (s := S100000x128) S4000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x2.size a ≤ S128x2.size a
  hwx2_3 : ∀ i : grid2.Coords, EltTy.bits .f32 = 32 ∨ (Rect.block (s := S128x2) S128x2.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x2.size a ≤ S1x2.size a
  hwx2_4 : ∀ i : grid2.Coords, EltTy.bits .f32 = 32 ∨ (Rect.block (s := S1x2) S1x2.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x2.size a ≤ S100000x2.size a
  hwx2_5 : ∀ i : grid2.Coords, EltTy.bits .f32 = 32 ∨ (Rect.block (s := S100000x2) S4000x2.size (cc2_transform_5 i) (hinb2_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x2_S4000x2_1_0_0_1_n_n : DotDims S4000x128 S128x2 S4000x2 where
  lhsContracting := [1]
  rhsContracting := [0]
  lhsNonContracting := [0]
  rhsNonContracting := [1]
  lhsBatch := []
  rhsBatch := []
  wf := dot_S4000x128_S128x2_S4000x2_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S4000x2.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x2 : Shape := ⟨2, ![100000, 2]⟩
abbrev S1x2 : Shape := ⟨2, ![1, 2]⟩
abbrev S100000x1 : Shape := ⟨2, ![100000, 1]⟩

abbrev nBuf : Space → Nat
  | .hbm => 132
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x2, .f32⟩
  | 7 => ⟨S2, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S100000x128, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x128, .f32⟩
  | 58 => ⟨S1700000x1, .f32⟩
  | 59 => ⟨S1700000x128, .f32⟩
  | 60 => ⟨S1700000x128, .f32⟩
  | 61 => ⟨S_, .f32⟩
  | 62 => ⟨S100000x128, .f32⟩
  | 63 => ⟨S1700000x1, .i32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x128, .f32⟩
  | 72 => ⟨S_, .i32⟩
  | 73 => ⟨S1700000, .i32⟩
  | 74 => ⟨S1700000, .i1⟩
  | 75 => ⟨S_, .i32⟩
  | 76 => ⟨S1700000, .i32⟩
  | 77 => ⟨S1700000, .i32⟩
  | 78 => ⟨S1700000, .i32⟩
  | 79 => ⟨S1700000x1, .i32⟩
  | 80 => ⟨S1700000, .f32⟩
  | 81 => ⟨S_, .i32⟩
  | 82 => ⟨S1700000, .i32⟩
  | 83 => ⟨S1700000, .i1⟩
  | 84 => ⟨S_, .i32⟩
  | 85 => ⟨S1700000, .i32⟩
  | 86 => ⟨S1700000, .i32⟩
  | 87 => ⟨S1700000, .i32⟩
  | 88 => ⟨S1700000x1, .i32⟩
  | 89 => ⟨S1700000, .f32⟩
  | 90 => ⟨S1700000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000x128, .f32⟩
  | 100 => ⟨S1700000x1, .f32⟩
  | 101 => ⟨S1700000x128, .f32⟩
  | 102 => ⟨S1700000x128, .f32⟩
  | 103 => ⟨S_, .f32⟩
  | 104 => ⟨S100000x128, .f32⟩
  | 105 => ⟨S1700000x1, .i32⟩
  | 106 => ⟨S100000x128, .f32⟩
  | 107 => ⟨S1x128, .f32⟩
  | 108 => ⟨S100000x128, .f32⟩
  | 109 => ⟨S100000x128, .f32⟩
  | 110 => ⟨S_, .f32⟩
  | 111 => ⟨S100000x128, .f32⟩
  | 112 => ⟨S100000x128, .f32⟩
  | 113 => ⟨S100000x2, .f32⟩
  | 114 => ⟨S1x2, .f32⟩
  | 115 => ⟨S100000x2, .f32⟩
  | 116 => ⟨S100000x2, .f32⟩
  | 117 => ⟨S_, .f32⟩
  | 118 => ⟨S100000, .f32⟩
  | 119 => ⟨S_, .f32⟩
  | 120 => ⟨S100000, .f32⟩
  | 121 => ⟨S100000, .f32⟩
  | 122 => ⟨S100000x1, .f32⟩
  | 123 => ⟨S100000x2, .f32⟩
  | 124 => ⟨S100000x2, .f32⟩
  | 125 => ⟨S100000x2, .f32⟩
  | 126 => ⟨S_, .f32⟩
  | 127 => ⟨S100000, .f32⟩
  | _ => ⟨S100000x128, .f32⟩

abbrev hbmTy0_1 (i : Nat) : BufTy := match i % 128 with
  | 0 => ⟨S100000x1, .f32⟩
  | 1 => ⟨S100000x1, .f32⟩
  | 2 => ⟨S100000x2, .f32⟩
  | 3 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_11 : Ref sig .tc := ⟨.hbm, 81, rfl⟩
abbrev main_v56 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_15 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_call2_cst : Ref sig .tc := ⟨.hbm, 110, rfl⟩
abbrev main_call2_v0 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_call3_cst : Ref sig .tc := ⟨.hbm, 117, rfl⟩
abbrev main_call3_v0 : Ref sig .tc := ⟨.hbm, 118, rfl⟩
abbrev main_call3_cst_0 : Ref sig .tc := ⟨.hbm, 119, rfl⟩
abbrev main_call3_v1 : Ref sig .tc := ⟨.hbm, 120, rfl⟩
abbrev main_call3_v2 : Ref sig .tc := ⟨.hbm, 121, rfl⟩
abbrev main_call3_v3 : Ref sig .tc := ⟨.hbm, 122, rfl⟩
abbrev main_call3_v4 : Ref sig .tc := ⟨.hbm, 123, rfl⟩
abbrev main_call3_v5 : Ref sig .tc := ⟨.hbm, 124, rfl⟩
abbrev main_call3_v6 : Ref sig .tc := ⟨.hbm, 125, rfl⟩
abbrev main_call3_cst_1 : Ref sig .tc := ⟨.hbm, 126, rfl⟩
abbrev main_call3_v7 : Ref sig .tc := ⟨.hbm, 127, rfl⟩
abbrev main_call3_v8 : Ref sig .tc := ⟨.hbm, 128, rfl⟩
abbrev main_call3_v9 : Ref sig .tc := ⟨.hbm, 129, rfl⟩
abbrev main_call3_v10 : Ref sig .tc := ⟨.hbm, 130, rfl⟩
abbrev main_v85 : Ref sig .tc := ⟨.hbm, 131, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  scatter_S100000_S1700000x1_S1700000_n_0_0_1_wf : ScatterDims.WF S100000 S1700000x1 S1700000 [] [0] [0] 1
  dot_S100000x128_S128x128_S100000x128_1_0_0_1_n_n_wf : DotDims.WF S100000x128 S128x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x2_S100000x2_1_0_0_1_n_n_wf : DotDims.WF S100000x128 S128x2 S100000x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.KernelRun.lean ====
/-
  The idealized kernel's run with its result NAMED. The program is three kernel regions among stretches of host
  operations; the state at each boundary is a fold from the launch memory, and at the return every buffer holds that
  fold's last stage. The run below is the three-region launch with its last step reading, beside the eight argument
  arrays, the result array at that last stage.
-/
import proofs.«114970_j5755256176696_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the idealized kernel's @main terminates, nothing faulting; the result array ends at
    the last boundary's contents and the argument arrays as launched. -/
theorem run : θ_run defs (onTc (τ := τ) (main (F := F))) ⟨m, fun _ => 0, ρ⟩ (fun r => ∀ c : Dev nD,
      r.2.mem ((c.tc : Thread nD τ).loc main_v41) = W8 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v41 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Named

end
-- ==== Proof.LibReal.lean ====
/-
  General lemmas: arrays of extended reals all of whose entries are real numbers, and the operations that keep
  them so — sums, products, differences, finite sums, maxima, quotients by a nonzero real, and the inverse square
  root of a positive real.
-/
import Idealize.ShloMosaic.PureOps.Ideal

noncomputable section

namespace Cert.LibReal

open Idealize.ShloMosaic

/-- An extended real that is a real number. -/
def IsR (x : EReal) : Prop := ∃ r : ℝ, x = (r : EReal)

/-- Every entry of an array is a real number. -/
def AllR {ι : Type} (v : ι → EReal) : Prop := ∀ i, IsR (v i)

theorem isR_coe (r : ℝ) : IsR (r : EReal) := ⟨r, rfl⟩
theorem isR_zero : IsR (0 : EReal) := ⟨0, rfl⟩
theorem isR_one : IsR (1 : EReal) := ⟨1, rfl⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.max {x y : EReal} (hx : IsR x) (hy : IsR y) : IsR (max x y) := by
  rcases max_choice x y with h | h <;> rw [h] <;> assumption

theorem IsR.sum {ι : Type} (s : Finset ι) (f : ι → EReal) (h : ∀ i ∈ s, IsR (f i)) : IsR (∑ i ∈ s, f i) := by
  classical
  induction s using Finset.induction_on with
  | empty => simpa using isR_zero
  | insert i s hi ih =>
    rw [Finset.sum_insert hi]
    exact (h i (Finset.mem_insert_self i s)).add (ih fun j hj => h j (Finset.mem_insert_of_mem hj))

/-- A quotient by a nonzero real. -/
theorem IsR.div {x : EReal} (hx : IsR x) {n : ℝ} (hn : n ≠ 0) : IsR (Ideal.div x (n : EReal)) := by
  obtain ⟨a, rfl⟩ := hx
  rw [Ideal.div_coe hn]
  exact (isR_coe a).mul (isR_coe _)

/-- The inverse square root of a positive real is a real. -/
theorem isR_rsqrt {r : ℝ} (hr : 0 < r) : IsR (Ideal.rsqrt (r : EReal)) := by
  rw [Ideal.rsqrt_coe, if_neg (not_lt.mpr hr.le), if_neg hr.ne']
  exact isR_coe _

/-- A sum of ones over a finite set is a nonnegative real. -/
theorem sum_ones {ι : Type} (s : Finset ι) : ∃ r : ℝ, 0 ≤ r ∧ (∑ _i ∈ s, ((1 : ℝ) : EReal)) = (r : EReal) := by
  classical
  induction s using Finset.induction_on with
  | empty => exact ⟨0, le_refl _, by simp⟩
  | insert i s hi ih =>
    obtain ⟨r, hr, e⟩ := ih
    refine ⟨1 + r, by linarith, ?_⟩
    rw [Finset.sum_insert hi, e, EReal.coe_add]

end Cert.LibReal

end
-- ==== Proof.Net.lean ====
/-
  A two-layer graph convolution with symmetric normalization, followed by a linear layer and a row-wise log-softmax,
  written two ways over abstract finite index types, and the laws that make the two ways one function.

  The graph is a list of edges. Edge e lands on node land e (on none when its target word is out of range), takes its
  message from row take e, and the reference reads the target's factor at row takeD e; when e lands on i, takeD e = i.
  Write d i for node i's factor: a nonnegative real (the inverse square root of its in-degree, or 0).

  One way scales each row by its own factor BEFORE the rows are gathered and summed, and scales the sum by the
  target's factor afterwards:       ( Σ_{e → i} (h W)(take e, f) · d (take e) ) · d i .
  The other scales each gathered row by the edge's product of factors:
                                      Σ_{e → i} (h W)(take e, f) · ( d (take e) · d (takeD e) ) .
  For an edge landing on i the second factor is d i, and a nonnegative real factor distributes over a finite sum of
  extended reals, infinite entries included; so the two agree with no hypothesis on h.

  The log-softmax is written  l c − (m + log Σ exp (l − m))  one way and  (l c − m) − log Σ exp (l − m)  the other, m the
  row's maximum. These agree when the logits are real numbers (at +∞ they do not), which is where finiteness of the
  inputs is used: every stage maps real arrays to real arrays.
-/
import Idealize.ShloMosaic.PureOps.Ideal
import proofs.«114970_j5755256176696_2_alg».proof.Proof.LibReal

noncomputable section

open scoped BigOperators

namespace Cert.Gcn

open Idealize.ShloMosaic Cert.LibReal

/-- A nonnegative real number among the extended reals. -/
def IsNN (x : EReal) : Prop := ∃ r : ℝ, 0 ≤ r ∧ x = (r : EReal)

theorem IsNN.isR {x : EReal} (h : IsNN x) : IsR x := by obtain ⟨r, _, e⟩ := h; exact ⟨r, e⟩
theorem isNN_zero : IsNN (0 : EReal) := ⟨0, le_refl _, rfl⟩

theorem IsNN.add {x y : EReal} (hx : IsNN x) (hy : IsNN y) : IsNN (x + y) := by
  obtain ⟨a, ha, rfl⟩ := hx; obtain ⟨b, hb, rfl⟩ := hy
  exact ⟨a + b, add_nonneg ha hb, (EReal.coe_add a b).symm⟩

theorem IsNN.sum {ι : Type} (s : Finset ι) (f : ι → EReal) (h : ∀ i ∈ s, IsNN (f i)) : IsNN (∑ i ∈ s, f i) := by
  classical
  induction s using Finset.induction_on with
  | empty => simpa using isNN_zero
  | insert i s hi ih =>
    rw [Finset.sum_insert hi]
    exact (h i (Finset.mem_insert_self i s)).add (ih fun j hj => h j (Finset.mem_insert_of_mem hj))

/-- The coercion of a finite sum of reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A nonnegative real factor distributes over a finite sum of extended reals. -/
theorem sum_mul_nn {ι : Type} (s : Finset ι) (f : ι → EReal) {c : EReal} (hc : IsNN c) :
    (∑ i ∈ s, f i) * c = ∑ i ∈ s, f i * c := by
  classical
  obtain ⟨r, hr, rfl⟩ := hc
  induction s using Finset.induction_on with
  | empty => simp
  | insert i s hi ih =>
    rw [Finset.sum_insert hi, Finset.sum_insert hi,
      EReal.right_distrib_of_nonneg_of_ne_top (EReal.coe_nonneg.mpr hr) (EReal.coe_ne_top r), ih]

/-! ## The graph -/

structure Graph (N E : ℕ) where
  /-- the node edge e's message is added to, none when it is dropped -/
  land : Fin E → Option (Fin N)
  /-- the row edge e's message is taken from -/
  take : Fin E → Fin N
  /-- the row at which the reference reads the target's factor -/
  takeD : Fin E → Fin N
  takeD_land : ∀ e i, land e = some i → takeD e = i

variable {N E : ℕ} (g : Graph N E)

/-- The edges that land on node i. -/
def Graph.into (i : Fin N) : Finset (Fin E) := Finset.univ.filter fun e => g.land e = some i

theorem Graph.takeD_of_mem {i : Fin N} {e : Fin E} (h : e ∈ g.into i) : g.takeD e = i :=
  g.takeD_land e i (Finset.mem_filter.mp h).2

/-- The in-degree: u per landing edge, summed from zero. -/
def deg (u : EReal) (i : Fin N) : EReal := 0 + ∑ _e ∈ g.into i, u

/-- The node's factor: the inverse square root of a positive degree, else zero. -/
def dinv (u : EReal) (i : Fin N) : EReal := if 0 < deg g u i then Ideal.rsqrt (deg g u i) else 0

theorem deg_nn {u : EReal} (hu : IsNN u) (i : Fin N) : IsNN (deg g u i) := by
  unfold deg
  rw [zero_add]
  exact IsNN.sum _ _ fun _ _ => hu

theorem dinv_nn {u : EReal} (hu : IsNN u) (i : Fin N) : IsNN (dinv g u i) := by
  obtain ⟨q, hq, e⟩ := deg_nn g hu i
  unfold dinv
  rw [e]
  by_cases h : (0 : EReal) < (q : EReal)
  · rw [if_pos h]
    have hq' : 0 < q := by exact_mod_cast h
    rw [Ideal.rsqrt_coe, if_neg (not_lt.mpr hq), if_neg hq'.ne']
    exact ⟨(Real.sqrt q)⁻¹, inv_nonneg.mpr (Real.sqrt_nonneg q), rfl⟩
  · rw [if_neg h]; exact isNN_zero

/-! ## One layer, two ways -/

section Layer
variable {A B : ℕ}

/-- The matrix product, entry (n, f). -/
def lin (h : Fin N → Fin A → EReal) (W : Fin A → Fin B → EReal) (n : Fin N) (f : Fin B) : EReal := ∑ k, h n k * W k f

/-- Rows scaled by their own factor. -/
def preK (d : Fin N → EReal) (h : Fin N → Fin A → EReal) (W : Fin A → Fin B → EReal) (n : Fin N) (f : Fin B) : EReal :=
  lin h W n f * d n

/-- The taken rows summed into the nodes they land on, from zero. -/
def aggK (z : Fin N → Fin B → EReal) (i : Fin N) (f : Fin B) : EReal := 0 + ∑ e ∈ g.into i, z (g.take e) f

/-- Scale by the target's factor, add the bias, clip at zero. -/
def actK (d : Fin N → EReal) (a : Fin N → Fin B → EReal) (b : Fin B → EReal) (i : Fin N) (f : Fin B) : EReal :=
  max (a i f * d i + b f) 0

def layerK (d : Fin N → EReal) (h : Fin N → Fin A → EReal) (W : Fin A → Fin B → EReal) (b : Fin B → EReal) :
    Fin N → Fin B → EReal :=
  actK d (aggK g (preK d h W)) b

/-- An edge's product of factors. -/
def normR (d : Fin N → EReal) (e : Fin E) : EReal := d (g.take e) * d (g.takeD e)

/-- An edge's message: the taken row times the edge's product of factors. -/
def msgR (d : Fin N → EReal) (y : Fin N → Fin B → EReal) (e : Fin E) (f : Fin B) : EReal := y (g.take e) f * normR g d e

/-- The messages summed into the nodes they land on, from zero. -/
def aggR (ms : Fin E → Fin B → EReal) (i : Fin N) (f : Fin B) : EReal := 0 + ∑ e ∈ g.into i, ms e f

/-- Add the bias, clip at zero. -/
def actR (a : Fin N → Fin B → EReal) (b : Fin B → EReal) (i : Fin N) (f : Fin B) : EReal := max (a i f + b f) 0

def layerR (d : Fin N → EReal) (h : Fin N → Fin A → EReal) (W : Fin A → Fin B → EReal) (b : Fin B → EReal) :
    Fin N → Fin B → EReal :=
  actR (aggR g (msgR g d (lin h W))) b

/-- THE LAYER LAW: the target's factor, a nonnegative real, comes out of the sum over the edges landing on it. -/
theorem layerR_eq_layerK (d : Fin N → EReal) (hd : ∀ i, IsNN (d i)) (h : Fin N → Fin A → EReal)
    (W : Fin A → Fin B → EReal) (b : Fin B → EReal) : layerR g d h W b = layerK g d h W b := by
  funext i f
  unfold layerR layerK actR actK aggR aggK msgR normR preK
  rw [zero_add, zero_add, sum_mul_nn _ _ (hd i)]
  refine congrArg (fun t => max (t + b f) 0) (Finset.sum_congr rfl fun e he => ?_)
  rw [g.takeD_of_mem he, mul_assoc]

theorem lin_real {h : Fin N → Fin A → EReal} {W : Fin A → Fin B → EReal} (hh : ∀ n k, IsR (h n k)) (hW : ∀ k f, IsR (W k f))
    (n : Fin N) (f : Fin B) : IsR (lin h W n f) :=
  IsR.sum _ _ fun k _ => (hh n k).mul (hW k f)

theorem layerK_real {d : Fin N → EReal} (hd : ∀ i, IsR (d i)) {h : Fin N → Fin A → EReal} {W : Fin A → Fin B → EReal}
    {b : Fin B → EReal} (hh : ∀ n k, IsR (h n k)) (hW : ∀ k f, IsR (W k f)) (hb : ∀ f, IsR (b f)) (i : Fin N) (f : Fin B) :
    IsR (layerK g d h W b i f) := by
  unfold layerK actK aggK preK
  refine IsR.max ((IsR.mul (isR_zero.add (IsR.sum _ _ fun e _ => ?_)) (hd i)).add (hb f)) isR_zero
  exact (lin_real hh hW _ _).mul (hd _)

end Layer

/-! ## The log-softmax, two ways -/

section Softmax
variable {K : ℕ}

/-- The fold of max over a row, from bot. -/
def rowMax (bot : EReal) (l : Fin K → EReal) : EReal := Finset.univ.fold max bot l

def lsmK (bot : EReal) (l : Fin K → EReal) (c : Fin K) : EReal :=
  l c - (rowMax bot l + Ideal.log (∑ c', Ideal.exp (l c' - rowMax bot l)))

def lsmR (bot : EReal) (l : Fin K → EReal) (c : Fin K) : EReal :=
  (l c - max bot (rowMax bot l)) - Ideal.log (0 + ∑ c', Ideal.exp (l c' - max bot (rowMax bot l)))

/-- The fold of max from -∞ over a nonempty family of reals is a real. -/
theorem fold_max_real {ι : Type} (s : Finset ι) (f : ι → EReal) (hf : ∀ i, IsR (f i)) :
    (s = ∅ ∧ s.fold max ⊥ f = ⊥) ∨ IsR (s.fold max ⊥ f) := by
  classical
  induction s using Finset.induction_on with
  | empty => exact Or.inl ⟨rfl, rfl⟩
  | insert i s hi ih =>
    right
    rw [Finset.fold_insert hi]
    rcases ih with ⟨_, e⟩ | hr
    · rw [e, max_eq_left bot_le]; exact hf i
    · exact (hf i).max hr

/-- THE SOFTMAX LAW: on real logits the two groupings of the subtraction agree. -/
theorem lsmR_eq_lsmK (l : Fin K → EReal) (hl : ∀ c, IsR (l c)) : lsmR ⊥ l = lsmK ⊥ l := by
  funext c
  have hne : (Finset.univ : Finset (Fin K)) ≠ ∅ := Finset.univ_nonempty_iff.mpr ⟨c⟩ |>.ne_empty
  have hm : IsR (rowMax ⊥ l) := by
    rcases fold_max_real Finset.univ l hl with ⟨e, _⟩ | h
    · exact absurd e hne
    · exact h
  obtain ⟨μ, hμ⟩ := hm
  choose a ha using hl
  unfold lsmR lsmK
  rw [max_eq_right bot_le, zero_add, hμ]
  have hterm : ∀ c', Ideal.exp (l c' - (μ : EReal)) = ((Real.exp (a c' - μ) : ℝ) : EReal) := fun c' => by
    rw [ha c', ← EReal.coe_sub, Ideal.exp_coe]
  rw [Finset.sum_congr rfl fun c' _ => hterm c', ← coe_sum, Ideal.log_coe]
  have hpos : 0 < ∑ c', Real.exp (a c' - μ) :=
    Finset.sum_pos (fun c' _ => Real.exp_pos _) (Finset.univ_nonempty_iff.mpr ⟨c⟩)
  rw [if_neg (not_le.mpr hpos), ha c]
  exact_mod_cast (by ring : a c - μ - Real.log (∑ c', Real.exp (a c' - μ)) = a c - (μ + Real.log (∑ c', Real.exp (a c' - μ))))

end Softmax

/-! ## The network, two ways -/

section Net
variable {C K : ℕ}

/-- The logits of node i: the last linear layer plus its bias. -/
def logits (t : Fin N → Fin C → EReal) (W : Fin C → Fin K → EReal) (b : Fin K → EReal) (i : Fin N) (c : Fin K) : EReal :=
  lin t W i c + b c

def netK (bot : EReal) (d : Fin N → EReal) (x : Fin N → Fin C → EReal) (W1 : Fin C → Fin C → EReal) (b1 : Fin C → EReal)
    (W2 : Fin C → Fin C → EReal) (b2 : Fin C → EReal) (W3 : Fin C → Fin K → EReal) (b3 : Fin K → EReal) :
    Fin N → Fin K → EReal :=
  fun i => lsmK bot (logits (layerK g d (layerK g d x W1 b1) W2 b2) W3 b3 i)

def netR (bot : EReal) (d : Fin N → EReal) (x : Fin N → Fin C → EReal) (W1 : Fin C → Fin C → EReal) (b1 : Fin C → EReal)
    (W2 : Fin C → Fin C → EReal) (b2 : Fin C → EReal) (W3 : Fin C → Fin K → EReal) (b3 : Fin K → EReal) :
    Fin N → Fin K → EReal :=
  fun i => lsmR bot (logits (layerR g d (layerR g d x W1 b1) W2 b2) W3 b3 i)

/-- THE NETWORK LAW: on real inputs, with nonnegative real factors, the two networks are one function. -/
theorem netR_eq_netK (d : Fin N → EReal) (hd : ∀ i, IsNN (d i)) (x : Fin N → Fin C → EReal) (W1 : Fin C → Fin C → EReal)
    (b1 : Fin C → EReal) (W2 : Fin C → Fin C → EReal) (b2 : Fin C → EReal) (W3 : Fin C → Fin K → EReal) (b3 : Fin K → EReal)
    (hx : ∀ n k, IsR (x n k)) (hW1 : ∀ k f, IsR (W1 k f)) (hb1 : ∀ f, IsR (b1 f)) (hW2 : ∀ k f, IsR (W2 k f))
    (hb2 : ∀ f, IsR (b2 f)) (hW3 : ∀ k c, IsR (W3 k c)) (hb3 : ∀ c, IsR (b3 c)) :
    netR g ⊥ d x W1 b1 W2 b2 W3 b3 = netK g ⊥ d x W1 b1 W2 b2 W3 b3 := by
  funext i
  unfold netR netK
  rw [layerR_eq_layerK g d hd x W1 b1, layerR_eq_layerK g d hd _ W2 b2]
  refine lsmR_eq_lsmK _ fun c => ?_
  unfold logits
  have hdr : ∀ i, IsR (d i) := fun i => (hd i).isR
  exact (lin_real (layerK_real g hdr (layerK_real g hdr hx hW1 hb1) hW2 hb2) hW3 i c).add (hb3 c)

end Net

end Cert.Gcn

end
-- ==== Proof.Views.lean ====
/-
  Arrays of extended reals seen through their coordinates: a matrix as a function of (row, column), a vector as a
  function of its position, a one-column matrix as a function of its row, a one-row matrix as a function of its column;
  and the two float words the programs spell literally, the word of −∞ (the maxima start from it) and the word of 1
  (each landing edge adds it to a degree).
-/
import Idealize.ShloMosaic.Lib.ValueIdx
import proofs.«114970_j5755256176696_2_alg».proof.Proof.Net

noncomputable section

namespace Cert.Gcn

open Idealize.ShloMosaic Idealize.ShloMosaic.ValueIdx Cert.LibReal

/-- A matrix as a function of its row and column. -/
def mat {A B : ℕ} (a : (⟨2, ![A, B]⟩ : Shape).Idx → EReal) : Fin A → Fin B → EReal := fun p q => a (ix2 p q)

/-- A vector as a function of its position. -/
def vec {A : ℕ} (a : (⟨1, ![A]⟩ : Shape).Idx → EReal) : Fin A → EReal := fun p => a (ix1 p)

/-- A one-column matrix as a function of its row. -/
def col {A : ℕ} (a : (⟨2, ![A, 1]⟩ : Shape).Idx → EReal) : Fin A → EReal := fun p => a (ix2 p (⟨0, Nat.one_pos⟩ : Fin 1))

/-- A one-row matrix as a function of its column. -/
def row {B : ℕ} (a : (⟨2, ![1, B]⟩ : Shape).Idx → EReal) : Fin B → EReal := fun q => a (ix2 (⟨0, Nat.one_pos⟩ : Fin 1) q)

/-- The word of −∞, at the ideal values. -/
abbrev negInfW : EReal := Ideal.ofBits .f32 0xFF800000#32

/-- The word of 1, at the ideal values. -/
abbrev oneW : EReal := Ideal.ofBits .f32 0x3F800000#32

theorem negInfW_eq : negInfW = ⊥ := by simp [negInfW, Ideal.ofBits, Ideal.ieee]

theorem oneW_eq : oneW = 1 := by simp [oneW, Ideal.ofBits, Ideal.ieee, -EReal.coe_mul]; norm_num

theorem oneW_nn : IsNN oneW := ⟨1, zero_le_one, by rw [oneW_eq]; rfl⟩

theorem mat_real {A B : ℕ} {a : (⟨2, ![A, B]⟩ : Shape).Idx → EReal} (h : ∀ j, IsR (a j)) (p : Fin A) (q : Fin B) : IsR (mat a p q) := h _
theorem vec_real {A : ℕ} {a : (⟨1, ![A]⟩ : Shape).Idx → EReal} (h : ∀ j, IsR (a j)) (p : Fin A) : IsR (vec a p) := h _

end Cert.Gcn

end
-- ==== Proof.LibRowScatter.lean ====
/-
  General lemmas for `x.at[idx].add(u)` on the rows of a matrix: a scatter-add into a matrix of `N` rows of `C` entries
  from a column of `E` index words and `E` update rows. Update row `k` lands, whole, on the row its word names read
  signed, and nowhere when the word is outside `[0, N)`; so entry `(j, q)` of the result is the operand's entry plus
  the sum, over the update rows whose word names `j`, of their entries in column `q`.
-/
import Idealize.ShloMosaic.PureOps.Ideal
import Idealize.ShloMosaic.Lib.ValueIdx

noncomputable section

open scoped BigOperators

namespace Cert.LibRowScatter

open Idealize.ShloMosaic Idealize.ShloMosaic.ValueIdx

/-- The dimension numbers of `x.at[idx].add(u)` for a matrix `x` of `N` rows of `C` entries, a column of `E` index
    words and `E` update rows: whole rows are added. -/
abbrev rowScatter (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  { updateWindowDims := [1], insertedWindowDims := [0], scatterDimsToOperandDims := [0], indexVectorDim := 1, wf := wf }

/-- The row a word names: the word read signed, and none when it is outside `[0, N)`. -/
def lands (N : Nat) {w : Nat} (W : BitVec w) : Option (Fin N) :=
  if h : 0 ≤ W.toInt ∧ W.toInt < (N : Int) then some ⟨W.toInt.toNat, by omega⟩ else none

section
variable {N C E w : Nat} (wf : ScatterDims.WF ⟨2, ![N, C]⟩ ⟨2, ![E, 1]⟩ ⟨2, ![E, C]⟩ [1] [0] [0] 1)

/-- On the row axis the window of update `j` starts at its index word, read signed … -/
theorem rowScatter_start0 (j : (⟨2, ![E, C]⟩ : Shape).Idx) (idx : IVec ⟨2, ![E, 1]⟩ w) :
    (rowScatter N C E wf).start j idx (0 : Fin 2) = (idx (ix2 (j 0) (⟨0, Nat.one_pos⟩ : Fin 1))).toInt := by
  unfold ScatterDims.start
  rw [dif_pos (show (0 : Fin 2) ∈ (rowScatter N C E wf).scatterDimsToOperandDims from List.mem_singleton.mpr rfl)]
  have hsi : (rowScatter N C E wf).siIdx j ⟨List.idxOf (0 : Fin 2) (rowScatter N C E wf).scatterDimsToOperandDims,
      List.idxOf_lt_length_iff.2 (List.mem_singleton.mpr rfl)⟩ = ix2 (j 0) (⟨0, Nat.one_pos⟩ : Fin 1) := by
    funext b; refine Fin.ext ?_
    match b with
    | ⟨0, _⟩ => rfl
    | ⟨1, _⟩ => rfl
  rw [hsi]
  try rfl

/-- … and on the column axis at zero. -/
theorem rowScatter_start1 (j : (⟨2, ![E, C]⟩ : Shape).Idx) (idx : IVec ⟨2, ![E, 1]⟩ w) :
    (rowScatter N C E wf).start j idx (1 : Fin 2) = 0 := by
  unfold ScatterDims.start
  rw [dif_neg]
  intro h
  have h2 := List.mem_singleton.mp h
  exact Nat.one_ne_zero (congrArg Fin.val h2)

/-- The window is one row: its row coordinate is zero … -/
theorem rowScatter_window0 (j : (⟨2, ![E, C]⟩ : Shape).Idx) : (rowScatter N C E wf).window j (0 : Fin 2) = 0 := by
  unfold ScatterDims.window
  rw [dif_neg]
  intro h
  have h2 := (List.mem_filter.mp h).2
  simp at h2

/-- … and its column coordinate the update's. -/
theorem rowScatter_window1 (j : (⟨2, ![E, C]⟩ : Shape).Idx) : (rowScatter N C E wf).window j (1 : Fin 2) = (j 1).val := by
  unfold ScatterDims.window
  have hm : (1 : Fin 2) ∈ (List.finRange 2).filter (fun a => a ∉ [(0 : Fin 2)]) := by decide
  rw [dif_pos (show (1 : Fin 2) ∈ (rowScatter N C E wf).sKept from hm)]
  rfl

/-- Update row `k` lands, column by column, on the row its word names, and nowhere when the word is outside `[0, N)`. -/
theorem rowScatter_lands (k : Fin E) (q : Fin C) (idx : IVec ⟨2, ![E, 1]⟩ w) :
    (rowScatter N C E wf).resultIdx? (ix2 k q) idx
      = if h : 0 ≤ (idx (ix2 k (⟨0, Nat.one_pos⟩ : Fin 1))).toInt ∧ (idx (ix2 k (⟨0, Nat.one_pos⟩ : Fin 1))).toInt < (N : Int) then
          some (ix2 ⟨(idx (ix2 k (⟨0, Nat.one_pos⟩ : Fin 1))).toInt.toNat, by omega⟩ q)
        else none := by
  have s0 : (rowScatter N C E wf).start (ix2 k q) idx (0 : Fin 2) + ((rowScatter N C E wf).window (ix2 k q) (0 : Fin 2) : Int)
      = (idx (ix2 k (⟨0, Nat.one_pos⟩ : Fin 1))).toInt := by
    rw [rowScatter_start0, rowScatter_window0, Nat.cast_zero, add_zero]
    try rfl
  have s1 : (rowScatter N C E wf).start (ix2 k q) idx (1 : Fin 2) + ((rowScatter N C E wf).window (ix2 k q) (1 : Fin 2) : Int)
      = (q.val : Int) := by
    rw [rowScatter_start1, rowScatter_window1, zero_add]
    try rfl
  unfold ScatterDims.resultIdx?
  by_cases h : 0 ≤ (idx (ix2 k (⟨0, Nat.one_pos⟩ : Fin 1))).toInt ∧ (idx (ix2 k (⟨0, Nat.one_pos⟩ : Fin 1))).toInt < (N : Int)
  · have hall : ∀ a : Fin 2, 0 ≤ (rowScatter N C E wf).start (ix2 k q) idx a + ((rowScatter N C E wf).window (ix2 k q) a : Int)
        ∧ (rowScatter N C E wf).start (ix2 k q) idx a + ((rowScatter N C E wf).window (ix2 k q) a : Int)
          < ((⟨2, ![N, C]⟩ : Shape).size a : Int) := by
      intro a
      match a with
      | ⟨0, _⟩ =>
        show 0 ≤ (rowScatter N C E wf).start (ix2 k q) idx (0 : Fin 2) + ((rowScatter N C E wf).window (ix2 k q) (0 : Fin 2) : Int)
          ∧ (rowScatter N C E wf).start (ix2 k q) idx (0 : Fin 2) + ((rowScatter N C E wf).window (ix2 k q) (0 : Fin 2) : Int) < (N : Int)
        rw [s0]; exact h
      | ⟨1, _⟩ =>
        show 0 ≤ (rowScatter N C E wf).start (ix2 k q) idx (1 : Fin 2) + ((rowScatter N C E wf).window (ix2 k q) (1 : Fin 2) : Int)
          ∧ (rowScatter N C E wf).start (ix2 k q) idx (1 : Fin 2) + ((rowScatter N C E wf).window (ix2 k q) (1 : Fin 2) : Int) < (C : Int)
        rw [s1]; have := q.isLt; omega
    rw [dif_pos hall, dif_pos h]
    congr 1
    funext a
    refine Fin.ext ?_
    match a with
    | ⟨0, _⟩ =>
      show ((rowScatter N C E wf).start (ix2 k q) idx (0 : Fin 2) + ((rowScatter N C E wf).window (ix2 k q) (0 : Fin 2) : Int)).toNat
        = (idx (ix2 k (⟨0, Nat.one_pos⟩ : Fin 1))).toInt.toNat
      rw [s0]
    | ⟨1, _⟩ =>
      show ((rowScatter N C E wf).start (ix2 k q) idx (1 : Fin 2) + ((rowScatter N C E wf).window (ix2 k q) (1 : Fin 2) : Int)).toNat
        = q.val
      rw [s1]; simp
  · rw [dif_neg h, dif_neg]
    intro hall
    have h0 := hall (0 : Fin 2)
    rw [s0] at h0
    exact h h0

/-- So update entry `(k, q')` lands on entry `(j, q)` exactly when row `k`'s word names `j` and the columns agree. -/
theorem rowScatter_lands_iff (k : Fin E) (q' : Fin C) (idx : IVec ⟨2, ![E, 1]⟩ w) (j : Fin N) (q : Fin C) :
    (rowScatter N C E wf).resultIdx? (ix2 k q') idx = some (ix2 j q)
      ↔ lands N (idx (ix2 k (⟨0, Nat.one_pos⟩ : Fin 1))) = some j ∧ q' = q := by
  rw [rowScatter_lands]
  unfold lands
  by_cases h : 0 ≤ (idx (ix2 k (⟨0, Nat.one_pos⟩ : Fin 1))).toInt ∧ (idx (ix2 k (⟨0, Nat.one_pos⟩ : Fin 1))).toInt < (N : Int)
  · rw [dif_pos h, dif_pos h]
    constructor
    · intro e
      have e' := Option.some.inj e
      have e0 := congrFun e' (0 : Fin 2)
      have e1 := congrFun e' (1 : Fin 2)
      exact ⟨congrArg some e0, e1⟩
    · rintro ⟨e0, rfl⟩
      rw [Option.some.inj e0]
  · rw [dif_neg h, dif_neg h]
    constructor
    · intro e; exact absurd e (by simp)
    · rintro ⟨e, -⟩; exact absurd e (by simp)

/-- Entry `(j, q)` of the scatter-add: the operand's entry plus the entries in column `q` of the update rows whose
    word names row `j`. -/
theorem rowScatter_apply (x : (⟨2, ![N, C]⟩ : Shape).Idx → EReal) (idx : IVec ⟨2, ![E, 1]⟩ w)
    (upd : (⟨2, ![E, C]⟩ : Shape).Idx → EReal) (j : Fin N) (q : Fin C) :
    Ideal.hostScatterAdd (rowScatter N C E wf) x idx upd (ix2 j q)
      = x (ix2 j q) + ∑ k ∈ Finset.univ.filter (fun k : Fin E => lands N (idx (ix2 k (⟨0, Nat.one_pos⟩ : Fin 1))) = some j),
          upd (ix2 k q) := by
  unfold Ideal.hostScatterAdd
  refine congrArg (x (ix2 j q) + ·) (Eq.symm ?_)
  refine Finset.sum_bij (fun k _ => ix2 k q) ?_ ?_ ?_ ?_
  · intro k hk
    have hk' := (Finset.mem_filter.mp hk).2
    exact Finset.mem_filter.mpr ⟨Finset.mem_univ _, (rowScatter_lands_iff wf k q idx j q).mpr ⟨hk', rfl⟩⟩
  · intro k _ k' _ e
    exact congrFun e (0 : Fin 2)
  · intro u hu
    have hu' := (Finset.mem_filter.mp hu).2
    rw [eq_ix2 u] at hu'
    obtain ⟨h1, h2⟩ := (rowScatter_lands_iff wf (u 0) (u 1) idx j q).mp hu'
    refine ⟨u 0, Finset.mem_filter.mpr ⟨Finset.mem_univ _, h1⟩, ?_⟩
    rw [← h2]; exact (eq_ix2 u).symm
  · intro k _; rfl

end

end Cert.LibRowScatter

end
-- ==== Proof.LibVecScatter.lean ====
/-
  General lemmas for one-dimensional host data: a scatter into a vector of `N` entries from a column of `E` index
  words lands update `e` on the entry its word names read signed, and on none when the word is outside `[0, N)`;
  a two-piece concatenation of vectors read in its first and in its second piece; a sum over a vector's indices
  as a sum over `Fin N`, and split at a cut `n₁ + n₂ = N`.
-/
import Idealize.ShloMosaic.Lib.ValueIdx
import Idealize.ShloMosaic.Lib.Pipeline.Value

noncomputable section

open scoped BigOperators

namespace Cert.LibVecScatter

open Idealize.ShloMosaic Idealize.ShloMosaic.ValueIdx

variable {α : Type}

/-! ## A scatter into a vector from a column of index words -/

/-- The dimension numbers of `x.at[idx].add(u)` for a vector `x` of `N` entries and a column of `E` index words. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ :=
  { updateWindowDims := [], insertedWindowDims := [0], scatterDimsToOperandDims := [0], indexVectorDim := 1, wf := wf }

/-- The start of update `j`'s window: its index word, read signed. -/
theorem vecScatter_start {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) :
    (vecScatter N E wf).start j idx 0 = (idx (ix2 (j 0) (⟨0, Nat.one_pos⟩ : Fin 1))).toInt := by
  unfold ScatterDims.start
  rw [dif_pos (show (0 : Fin 1) ∈ (vecScatter N E wf).scatterDimsToOperandDims from List.mem_singleton.mpr rfl)]
  have hsi : (vecScatter N E wf).siIdx j ⟨List.idxOf (0 : Fin 1) (vecScatter N E wf).scatterDimsToOperandDims,
      List.idxOf_lt_length_iff.2 (List.mem_singleton.mpr rfl)⟩ = ix2 (j 0) (⟨0, Nat.one_pos⟩ : Fin 1) := by
    funext b; refine Fin.ext ?_
    match b with
    | ⟨0, _⟩ => rfl
    | ⟨1, _⟩ => rfl
  rw [hsi]
  rfl

/-- The window has one element: its coordinate is zero. -/
theorem vecScatter_window {N E : Nat} (wf : ScatterDims.WF ⟨1, ![N]⟩ ⟨2, ![E, 1]⟩ ⟨1, ![E]⟩ [] [0] [0] 1)
    (j : (⟨1, ![E]⟩ : Shape).Idx) : (vecScatter N E wf).window j 0 = 0 := by
  unfold ScatterDims.window
  rw [dif_neg]
  intro h
  have h2 := (List.mem_filter.mp h).2
  simp at h2

/-- Update `j` lands on entry `c` exactly when its index word, read signed, is `c`. -/
theorem vecScatter_lands {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) (c : Fin N) :
    (vecScatter N E wf).resultIdx? j idx = some (ix1 c)
      ↔ (idx (ix2 (j 0) (⟨0, Nat.one_pos⟩ : Fin 1))).toInt = (c.val : Int) := by
  have hsum : ∀ a : Fin 1, (vecScatter N E wf).start j idx a + ((vecScatter N E wf).window j a : Int)
      = (idx (ix2 (j 0) (⟨0, Nat.one_pos⟩ : Fin 1))).toInt := by
    intro a
    obtain rfl : a = 0 := Subsingleton.elim _ _
    rw [vecScatter_start, vecScatter_window]; simp
  unfold ScatterDims.resultIdx?
  constructor
  · intro h
    split at h
    · rename_i hin
      have h1 := congrFun (Option.some.inj h) 0
      have h2 := congrArg Fin.val h1
      have h3 := hin 0
      rw [hsum 0] at h3
      simp only [hsum 0] at h2
      show _ = (c.val : Int)
      have : ((idx (ix2 (j 0) (⟨0, Nat.one_pos⟩ : Fin 1))).toInt.toNat : Int) = (c.val : Int) := by
        exact_mod_cast h2
      omega
    · exact absurd h (by simp)
  · intro h
    have hin : ∀ a : Fin 1, 0 ≤ (vecScatter N E wf).start j idx a + ((vecScatter N E wf).window j a : Int)
        ∧ (vecScatter N E wf).start j idx a + ((vecScatter N E wf).window j a : Int) < ((⟨1, ![N]⟩ : Shape).size a : Int) := by
      intro a
      obtain rfl : a = 0 := Subsingleton.elim _ _
      rw [hsum 0, h]
      have := c.isLt
      refine ⟨by omega, ?_⟩
      show (c.val : Int) < (N : Int)
      omega
    rw [dif_pos hin]
    congr 1
    funext a
    obtain rfl : a = 0 := Subsingleton.elim _ _
    refine Fin.ext ?_
    show ((vecScatter N E wf).start j idx 0 + ((vecScatter N E wf).window j 0 : Int)).toNat = c.val
    rw [hsum 0, h]; simp

/-! ## A two-piece concatenation of vectors -/

/-- Below the cut, the concatenation is its first piece. -/
theorem concat1_left {n₁ n₂ N : Nat} (h : Shape.Concatenates [(⟨1, ![n₁]⟩ : Shape), ⟨1, ![n₂]⟩] ⟨1, ![N]⟩ 0)
    (x₁ : (⟨1, ![n₁]⟩ : Shape).Idx → α) (x₂ : (⟨1, ![n₂]⟩ : Shape).Idx → α) (k : Fin n₁) (hk : k.val < N) :
    concatenate ⟨1, ![N]⟩ 0 [⟨⟨1, ![n₁]⟩, x₁⟩, ⟨⟨1, ![n₂]⟩, x₂⟩] h (ix1 ⟨k.val, hk⟩) = x₁ (ix1 k) :=
  concatenate_pair_apply_left 0 x₁ x₂ h _ rfl (ix1 k) (fun b => by
    match b with
    | ⟨0, _⟩ => rfl)

/-- From the cut on, the concatenation is its second piece, the cut less. -/
theorem concat1_right {n₁ n₂ N : Nat} (h : Shape.Concatenates [(⟨1, ![n₁]⟩ : Shape), ⟨1, ![n₂]⟩] ⟨1, ![N]⟩ 0)
    (x₁ : (⟨1, ![n₁]⟩ : Shape).Idx → α) (x₂ : (⟨1, ![n₂]⟩ : Shape).Idx → α) (k : Fin n₂) (hk : n₁ + k.val < N) :
    concatenate ⟨1, ![N]⟩ 0 [⟨⟨1, ![n₁]⟩, x₁⟩, ⟨⟨1, ![n₂]⟩, x₂⟩] h (ix1 ⟨n₁ + k.val, hk⟩) = x₂ (ix1 k) :=
  concatenate_pair_apply_right 0 x₁ x₂ h _ rfl rfl (ix1 k)
    (fun b hb => absurd (Subsingleton.elim _ _) hb)
    (by show k.val + n₁ = n₁ + k.val; omega)

/-! ## Sums over a vector's indices -/

/-- A vector's indices are `Fin N`. -/
def idx1Equiv (N : Nat) : Fin N ≃ (⟨1, ![N]⟩ : Shape).Idx where
  toFun := ix1
  invFun := fun j => j 0
  left_inv := fun _ => rfl
  right_inv := fun j => (eq_ix1 j).symm

theorem sum_idx1 {M : Type*} [AddCommMonoid M] {N : Nat} (f : (⟨1, ![N]⟩ : Shape).Idx → M) :
    ∑ j, f j = ∑ k : Fin N, f (ix1 k) :=
  (Equiv.sum_comp (idx1Equiv N) f).symm

/-- A sum over a vector's indices, split at a cut. -/
theorem sum_idx1_split {M : Type*} [AddCommMonoid M] {n₁ n₂ N : Nat} (hN : n₁ + n₂ = N)
    (f : (⟨1, ![N]⟩ : Shape).Idx → M) :
    ∑ j, f j = (∑ k : Fin n₁, f (ix1 ⟨k.val, by omega⟩)) + ∑ k : Fin n₂, f (ix1 ⟨n₁ + k.val, by omega⟩) := by
  subst hN
  rw [sum_idx1, Fin.sum_univ_add]
  rfl

end Cert.LibVecScatter

end
-- ==== Proof.LibTake.lean ====
/-
  General lemmas: what `x[idx]` lowers to, read at an index. A gather of a vector, or of the rows of a matrix, at a
  column of start indices [E, 1] is the operand at the start index read signed and clamped into the operand's
  rows; and the two broadcasts that carry a per-row vector to a column and a column across the columns.
-/
import Idealize.ShloMosaic.Lib.ValueIdx
import Idealize.ShloMosaic.Lib.Pipeline.Value

noncomputable section

namespace Cert.LibTake

open Idealize.ShloMosaic Idealize.ShloMosaic.ValueIdx

variable {α : Type}

/-- The dimension numbers of `x[idx]` for a vector `x` of `N` entries and a column of `E` start indices. -/
abbrev vecTake (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ :=
  { offsetDims := [], collapsedSliceDims := [0], operandBatchingDims := [], startIndicesBatchingDims := [],
    startIndexMap := [0], indexVectorDim := 1, sliceSizes := ![1], wf := wf }

/-- Entry `e` of the gather is the vector at start index `idx[e, 0]`, read signed and clamped into `[0, N − 1]`. -/
theorem vecTake_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (vecTake N E wf) x idx y
      = x (ix1 ⟨min (idx (ix2 (y 0) (⟨0, Nat.one_pos⟩ : Fin 1))).toInt.toNat (N - 1), by omega⟩) := by
  unfold Host.gather
  congr 1
  funext a
  obtain rfl : a = 0 := Subsingleton.elim _ _
  refine Fin.ext ?_
  show (vecTake N E wf).start y idx 0 + (vecTake N E wf).batchCoord y 0 + (vecTake N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecTake N E wf).startIndexMap from List.mem_singleton.mpr rfl)]
  have hsi : (vecTake N E wf).siIdx y ⟨List.idxOf (0 : Fin 1) (vecTake N E wf).startIndexMap,
      List.idxOf_lt_length_iff.2 (List.mem_singleton.mpr rfl)⟩ = ix2 (y 0) (⟨0, Nat.one_pos⟩ : Fin 1) := by
    funext b; refine Fin.ext ?_
    match b with
    | ⟨0, _⟩ => rfl
    | ⟨1, _⟩ => rfl
  rw [hsi]
  rfl

/-- The dimension numbers of `x[idx]` for a matrix `x` of `N` rows of `C` entries and a column of `E` start indices:
    whole rows are taken. -/
abbrev rowTake (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ :=
  { offsetDims := [1], collapsedSliceDims := [0], operandBatchingDims := [], startIndicesBatchingDims := [],
    startIndexMap := [0], indexVectorDim := 1, sliceSizes := ![1, C], wf := wf }

/-- Entry `(e, c)` of the gather is the matrix at row `idx[e, 0]` (read signed and clamped into `[0, N − 1]`),
    column `c`. -/
theorem rowTake_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (y : (⟨2, ![E, C]⟩ : Shape).Idx) :
    Host.gather (rowTake N C E wf) x idx y
      = x (ix2 ⟨min (idx (ix2 (y 0) (⟨0, Nat.one_pos⟩ : Fin 1))).toInt.toNat (N - 1), by omega⟩ (y 1)) := by
  unfold Host.gather
  congr 1
  funext a
  refine Fin.ext ?_
  match a with
  | ⟨0, _⟩ =>
    show (rowTake N C E wf).start y idx (0 : Fin 2) + (rowTake N C E wf).batchCoord y (0 : Fin 2)
      + (rowTake N C E wf).offCoord y (0 : Fin 2) = min (idx (ix2 (y 0) (⟨0, Nat.one_pos⟩ : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTake N C E wf).startIndexMap from List.mem_singleton.mpr rfl)]
    have hsi : (rowTake N C E wf).siIdx y ⟨List.idxOf (0 : Fin 2) (rowTake N C E wf).startIndexMap,
        List.idxOf_lt_length_iff.2 (List.mem_singleton.mpr rfl)⟩ = ix2 (y 0) (⟨0, Nat.one_pos⟩ : Fin 1) := by
      funext b; refine Fin.ext ?_
      match b with
      | ⟨0, _⟩ => rfl
      | ⟨1, _⟩ => rfl
    rw [hsi]
    rfl
  | ⟨1, _⟩ =>
    show (rowTake N C E wf).start y idx (1 : Fin 2) + (rowTake N C E wf).batchCoord y (1 : Fin 2)
      + (rowTake N C E wf).offCoord y (1 : Fin 2) = (y 1).val
    have hs : (rowTake N C E wf).start y idx (1 : Fin 2) = 0 := by
      unfold GatherDims.start
      rw [dif_neg (show ¬ ((1 : Fin 2) ∈ ([0] : List (Fin 2))) from by decide)]
    rw [hs, GatherDims.batchCoord_eq_zero _ _ _ List.not_mem_nil]
    simp only [Nat.zero_add, Nat.add_zero]
    unfold GatherDims.offCoord
    rw [dif_pos ((GatherDims.mem_sKept _ _).mpr ⟨(show ¬ ((1 : Fin 2) ∈ ([0] : List (Fin 2))) from by decide), List.not_mem_nil⟩)]
    rfl

/-- A per-row vector carried to a column: entry `(e, u)` is the vector's entry `e`. -/
theorem bcastCol_apply {E : Nat} (h : (⟨1, ![E]⟩ : Shape).BroadcastsInDim ⟨2, ![E, 1]⟩ ![0])
    (v : (⟨1, ![E]⟩ : Shape).Idx → α) (e : Fin E) (u : Fin 1) :
    broadcastInDim ⟨2, ![E, 1]⟩ ![0] h v (ix2 e u) = v (ix1 e) := by
  unfold broadcastInDim
  congr 1
  funext a
  obtain rfl : a = 0 := Subsingleton.elim _ _
  refine Fin.ext ?_
  by_cases h1 : (⟨1, ![E]⟩ : Shape).size 0 = 1
  · rw [dif_pos h1]
    have : E = 1 := h1
    have := e.isLt
    show 0 = e.val
    omega
  · rw [dif_neg h1]; rfl

/-- A column carried across `C` columns: entry `(e, c)` is the column's entry `e`. -/
theorem bcastAcross_apply {E C : Nat} (h : (⟨2, ![E, 1]⟩ : Shape).BroadcastsInDim ⟨2, ![E, C]⟩ ![0, 1])
    (v : (⟨2, ![E, 1]⟩ : Shape).Idx → α) (e : Fin E) (c : Fin C) :
    broadcastInDim ⟨2, ![E, C]⟩ ![0, 1] h v (ix2 e c) = v (ix2 e (⟨0, Nat.one_pos⟩ : Fin 1)) := by
  unfold broadcastInDim
  congr 1
  funext a
  refine Fin.ext ?_
  match a with
  | ⟨0, _⟩ =>
    split
    · rename_i h1
      have hE : E = 1 := h1
      have := e.isLt
      show 0 = e.val
      omega
    · rfl
  | ⟨1, _⟩ =>
    split
    · rfl
    · rename_i h1
      exact absurd rfl h1

/-- A vector of `C` entries as one row: entry `(u, q)` is the vector's entry `q`. -/
theorem bcastRow_apply {C : Nat} (h : (⟨1, ![C]⟩ : Shape).BroadcastsInDim ⟨2, ![1, C]⟩ ![1])
    (v : (⟨1, ![C]⟩ : Shape).Idx → α) (u : Fin 1) (q : Fin C) :
    broadcastInDim ⟨2, ![1, C]⟩ ![1] h v (ix2 u q) = v (ix1 q) := by
  unfold broadcastInDim
  congr 1
  funext a
  obtain rfl : a = 0 := Subsingleton.elim _ _
  refine Fin.ext ?_
  split
  · rename_i h1
    have hC : C = 1 := h1
    have := q.isLt
    show 0 = q.val
    omega
  · rfl

/-- A row carried down `N` rows: entry `(r, q)` is the row's entry `q`. -/
theorem bcastDown_apply {N C : Nat} (h : (⟨2, ![1, C]⟩ : Shape).BroadcastsInDim ⟨2, ![N, C]⟩ ![0, 1])
    (v : (⟨2, ![1, C]⟩ : Shape).Idx → α) (r : Fin N) (q : Fin C) :
    broadcastInDim ⟨2, ![N, C]⟩ ![0, 1] h v (ix2 r q) = v (ix2 (⟨0, Nat.one_pos⟩ : Fin 1) q) := by
  unfold broadcastInDim
  congr 1
  funext a
  refine Fin.ext ?_
  match a with
  | ⟨0, _⟩ =>
    split
    · rfl
    · rename_i h1
      exact absurd rfl h1
  | ⟨1, _⟩ =>
    split
    · rename_i h1
      have hC : C = 1 := h1
      have := q.isLt
      show 0 = q.val
      omega
    · rfl

/-- A vector of `N` entries recast as a column: entry `(r, u)` is the vector's entry `r`. -/
theorem castCol_apply {N : Nat} (h : (⟨1, ![N]⟩ : Shape).ShapeCasts ⟨2, ![N, 1]⟩)
    (v : (⟨1, ![N]⟩ : Shape).Idx → α) (r : Fin N) (u : Fin 1) :
    shapeCast ⟨2, ![N, 1]⟩ v h (ix2 r u) = v (ix1 r) := by
  refine shapeCast_apply v h (ix2 r u) (ix1 r) ?_
  rw [Shape.rowMajor_val_two, Shape.rowMajor_val_one]
  show r.val = r.val * 1 + u.val
  have := u.isLt
  omega

/-- A vector of `C` entries recast as a row: entry `(u, q)` is the vector's entry `q`. -/
theorem castRow_apply {C : Nat} (h : (⟨1, ![C]⟩ : Shape).ShapeCasts ⟨2, ![1, C]⟩)
    (v : (⟨1, ![C]⟩ : Shape).Idx → α) (u : Fin 1) (q : Fin C) :
    shapeCast ⟨2, ![1, C]⟩ v h (ix2 u q) = v (ix1 q) := by
  refine shapeCast_apply v h (ix2 u q) (ix1 q) ?_
  rw [Shape.rowMajor_val_two, Shape.rowMajor_val_one]
  show q.val = u.val * C + q.val
  have := u.isLt
  have hu : u.val = 0 := by omega
  rw [hu]; omega

end Cert.LibTake

end
-- ==== Proof.Edges.lean ====
/-
  The graph that the two programs read off their edge list, and their gathers and scatter-adds read at an index in
  its terms.

  Both programs build two vectors of 1,700,000 index words, the sources and the targets (the given edges followed by
  one self-loop per node); nothing here depends on how. An edge's message is ADDED at the row its target word names,
  read signed, and dropped when that is outside [0, 100000). Rows are TAKEN at a word first normalised as numpy does
  (a negative word has 100000 added), then read signed and clamped into [0, 99999]. When an edge lands on row i its
  target word is i itself: it is not negative, so normalising leaves it, and it is in range, so clamping leaves it;
  hence the row at which the reference reads the target's factor is i.
-/
import Idealize.ShloMosaic.Lib.ValueIdx
import Idealize.ShloMosaic.Lib.Pipeline.Value
import Idealize.ShloMosaic.PureOps.Ideal.Laws
import proofs.«114970_j5755256176696_2_alg».proof.Proof.Views
import proofs.«114970_j5755256176696_2_alg».proof.Proof.LibRowScatter
import proofs.«114970_j5755256176696_2_alg».proof.Proof.LibVecScatter
import proofs.«114970_j5755256176696_2_alg».proof.Proof.LibTake

noncomputable section

open scoped BigOperators

namespace Cert.Gcn

open Idealize.ShloMosaic Idealize.ShloMosaic.ValueIdx Cert.LibReal

/-- The row a start-index word takes: read signed, clamped into the 100000 rows. -/
def clampRow (W : BitVec 32) : Fin 100000 := ⟨min W.toInt.toNat (100000 - 1), by omega⟩

/-- A vector of words laid out as a column. -/
def colOf (v : IVec ⟨1, ![1700000]⟩ 32) : IVec ⟨2, ![1700000, 1]⟩ 32 :=
  broadcastInDim ⟨2, ![1700000, 1]⟩ ![0] (by decide) v

theorem colOf_apply (v : IVec ⟨1, ![1700000]⟩ 32) (e : Fin 1700000) (u : Fin 1) : colOf v (ix2 e u) = v (ix1 e) :=
  LibTake.bcastCol_apply _ v e u

/-- numpy's normalisation of an index that may be negative: a negative word has the extent added. -/
def wrapV (v : IVec ⟨1, ![1700000]⟩ 32) : IVec ⟨1, ![1700000]⟩ 32 :=
  select (cmpi .slt v (broadcastInDim ⟨1, ![1700000]⟩ ![] (by decide) (constantI ⟨0, ![]⟩ 32 0#32)))
    (addi v (broadcastInDim ⟨1, ![1700000]⟩ ![] (by decide) (constantI ⟨0, ![]⟩ 32 100000#32))) v

theorem wrapV_apply (v : IVec ⟨1, ![1700000]⟩ 32) (j : (⟨1, ![1700000]⟩ : Shape).Idx) :
    wrapV v j = if (v j).slt 0#32 then v j + 100000#32 else v j := by
  show Scalar.select (BitVec.ofBool ((v j).slt 0#32)) (v j + 100000#32) (v j) = _
  unfold Scalar.select
  by_cases h : (v j).slt 0#32 = true
  · rw [h]; simp
  · rw [Bool.not_eq_true] at h
    rw [h]; simp

/-- A word that names a row in range is left alone by the normalisation and by the clamp. -/
theorem clampRow_wrap_of_lands (v : IVec ⟨1, ![1700000]⟩ 32) (e : Fin 1700000) (i : Fin 100000)
    (h : LibRowScatter.lands 100000 (colOf v (ix2 e (⟨0, Nat.one_pos⟩ : Fin 1))) = some i) :
    clampRow (colOf (wrapV v) (ix2 e (⟨0, Nat.one_pos⟩ : Fin 1))) = i := by
  rw [colOf_apply] at h ⊢
  rw [wrapV_apply]
  generalize v (ix1 e) = W at h ⊢
  unfold LibRowScatter.lands at h
  split at h
  · rename_i hr
    have hi := Option.some.inj h
    have hns : W.slt 0#32 = false := by
      rw [BitVec.slt_eq_decide]
      simp only [decide_eq_false_iff_not, not_lt]
      simpa using hr.1
    rw [hns]
    subst hi
    unfold clampRow
    refine Fin.ext ?_
    show min W.toInt.toNat (100000 - 1) = W.toInt.toNat
    omega
  · exact absurd h (by simp)

/-- The graph of the two word vectors. -/
def graphW (src dst : IVec ⟨1, ![1700000]⟩ 32) : Graph 100000 1700000 where
  land e := LibRowScatter.lands 100000 (colOf dst (ix2 e (⟨0, Nat.one_pos⟩ : Fin 1)))
  take e := clampRow (colOf (wrapV src) (ix2 e (⟨0, Nat.one_pos⟩ : Fin 1)))
  takeD e := clampRow (colOf (wrapV dst) (ix2 e (⟨0, Nat.one_pos⟩ : Fin 1)))
  takeD_land := clampRow_wrap_of_lands dst

variable (src dst : IVec ⟨1, ![1700000]⟩ 32)

/-! ## Rows and entries taken at the source and target words -/

/-- x[src] on the rows of a matrix: row e of the result is the row of x that edge e takes. -/
theorem takeRows_src (d : GatherDims ⟨2, ![100000, 128]⟩ ⟨2, ![1700000, 1]⟩ ⟨2, ![1700000, 128]⟩)
    (wf : GatherDims.WF ⟨2, ![100000, 128]⟩ ⟨2, ![1700000, 1]⟩ ⟨2, ![1700000, 128]⟩ [1] [0] [] [0] [] 1 ![1, 128])
    (hd : d = LibTake.rowTake 100000 128 1700000 wf) {α : Type} (x : (⟨2, ![100000, 128]⟩ : Shape).Idx → α)
    (e : Fin 1700000) (f : Fin 128) :
    Host.gather d x (colOf (wrapV src)) (ix2 e f) = x (ix2 ((graphW src dst).take e) f) := by
  subst hd
  exact LibTake.rowTake_apply (by decide) wf x _ (ix2 e f)

/-- v[src] on a vector. -/
theorem takeVec_src (d : GatherDims ⟨1, ![100000]⟩ ⟨2, ![1700000, 1]⟩ ⟨1, ![1700000]⟩)
    (wf : GatherDims.WF ⟨1, ![100000]⟩ ⟨2, ![1700000, 1]⟩ ⟨1, ![1700000]⟩ [] [0] [] [0] [] 1 ![1])
    (hd : d = LibTake.vecTake 100000 1700000 wf) {α : Type} (x : (⟨1, ![100000]⟩ : Shape).Idx → α) (e : Fin 1700000) :
    Host.gather d x (colOf (wrapV src)) (ix1 e) = x (ix1 ((graphW src dst).take e)) := by
  subst hd
  exact LibTake.vecTake_apply (by decide) wf x _ (ix1 e)

/-- v[dst] on a vector. -/
theorem takeVec_dst (d : GatherDims ⟨1, ![100000]⟩ ⟨2, ![1700000, 1]⟩ ⟨1, ![1700000]⟩)
    (wf : GatherDims.WF ⟨1, ![100000]⟩ ⟨2, ![1700000, 1]⟩ ⟨1, ![1700000]⟩ [] [0] [] [0] [] 1 ![1])
    (hd : d = LibTake.vecTake 100000 1700000 wf) {α : Type} (x : (⟨1, ![100000]⟩ : Shape).Idx → α) (e : Fin 1700000) :
    Host.gather d x (colOf (wrapV dst)) (ix1 e) = x (ix1 ((graphW src dst).takeD e)) := by
  subst hd
  exact LibTake.vecTake_apply (by decide) wf x _ (ix1 e)

/-! ## Rows and entries added at the target words -/

/-- The scatter-add of rows at the target words: entry (i, f) is the operand's plus column f of the rows landing on i. -/
theorem addRows_dst (d : ScatterDims ⟨2, ![100000, 128]⟩ ⟨2, ![1700000, 1]⟩ ⟨2, ![1700000, 128]⟩)
    (wf : ScatterDims.WF ⟨2, ![100000, 128]⟩ ⟨2, ![1700000, 1]⟩ ⟨2, ![1700000, 128]⟩ [1] [0] [0] 1)
    (hd : d = LibRowScatter.rowScatter 100000 128 1700000 wf) (z : (⟨2, ![100000, 128]⟩ : Shape).Idx → EReal)
    (upd : (⟨2, ![1700000, 128]⟩ : Shape).Idx → EReal) (i : Fin 100000) (f : Fin 128) :
    Host.scatterAdd (F := Ideal) (φ := .f32) d z (colOf dst) upd (ix2 i f)
      = z (ix2 i f) + ∑ e ∈ (graphW src dst).into i, upd (ix2 e f) := by
  subst hd
  exact LibRowScatter.rowScatter_apply wf z (colOf dst) upd i f

/-- The scatter-add of entries at the target words: entry i is the operand's plus the entries landing on i. -/
theorem addVec_dst (d : ScatterDims ⟨1, ![100000]⟩ ⟨2, ![1700000, 1]⟩ ⟨1, ![1700000]⟩)
    (wf : ScatterDims.WF ⟨1, ![100000]⟩ ⟨2, ![1700000, 1]⟩ ⟨1, ![1700000]⟩ [] [0] [0] 1)
    (hd : d = LibVecScatter.vecScatter 100000 1700000 wf) (z : (⟨1, ![100000]⟩ : Shape).Idx → EReal)
    (upd : (⟨1, ![1700000]⟩ : Shape).Idx → EReal) (i : Fin 100000) :
    Host.scatterAdd (F := Ideal) (φ := .f32) d z (colOf dst) upd (ix1 i)
      = z (ix1 i) + ∑ e ∈ (graphW src dst).into i, upd (ix1 e) := by
  subst hd
  show Ideal.hostScatterAdd _ z (colOf dst) upd (ix1 i) = _
  unfold Ideal.hostScatterAdd
  refine congrArg (z (ix1 i) + ·) (Eq.symm ?_)
  have hl : ∀ e : Fin 1700000, (graphW src dst).land e = some i
      ↔ (colOf dst (ix2 e (⟨0, Nat.one_pos⟩ : Fin 1))).toInt = (i.val : Int) := by
    intro e
    show LibRowScatter.lands 100000 _ = some i ↔ _
    unfold LibRowScatter.lands
    constructor
    · intro h
      split at h
      · have := congrArg Fin.val (Option.some.inj h)
        simp only at this
        omega
      · exact absurd h (by simp)
    · intro h
      have hi := i.isLt
      rw [dif_pos ⟨by omega, by omega⟩]
      refine congrArg some (Fin.ext ?_)
      show (colOf dst (ix2 e (⟨0, Nat.one_pos⟩ : Fin 1))).toInt.toNat = i.val
      omega
  refine Finset.sum_bij (fun e _ => ix1 e) ?_ ?_ ?_ ?_
  · intro e he
    have he' := (hl e).mp (Finset.mem_filter.mp he).2
    exact Finset.mem_filter.mpr ⟨Finset.mem_univ _, (LibVecScatter.vecScatter_lands wf (ix1 e) (colOf dst) i).mpr he'⟩
  · intro e _ e' _ h
    exact congrFun h (0 : Fin 1)
  · intro j hj
    have hj' := (LibVecScatter.vecScatter_lands wf j (colOf dst) i).mp (Finset.mem_filter.mp hj).2
    exact ⟨j 0, Finset.mem_filter.mpr ⟨Finset.mem_univ _, (hl (j 0)).mpr hj'⟩, (eq_ix1 j).symm⟩
  · intro e _; rfl

end Cert.Gcn

end
-- ==== Proof.KernelHost.lean ====
/-
  What the idealized kernel's host operations leave in the buffers the three regions read, as functions of the buffers
  they read, for ANY contents W of the buffers before the stretch.

  Before the first region: the two vectors of index words (the given edges, then one self-loop per node), the
  in-degrees (a one added at each target word, from zero), the nodes' factors (the inverse square root of a positive
  degree, else zero) and the factors as a column. Between two regions: the previous region's rows taken at the
  normalised source words and added at the target words, from zero; and a bias vector recast as one row.
-/
import proofs.«114970_j5755256176696_2_alg».proof.Proof.Gen.KernelIdeal.Frame
import proofs.«114970_j5755256176696_2_alg».proof.Proof.Edges

set_option maxRecDepth 16384

noncomputable section

open scoped BigOperators

namespace Cert.KernelIdeal.Fold

open Cert.KernelIdeal Cert.KernelIdeal.Gen Cert.Gcn
open Idealize.ShloMosaic Idealize.ShloMosaic.TcCoe Idealize.ShloMosaic.StableHlo Idealize.ShloMosaic.ValueIdx Idealize.SL.Sem

/-! ## The terms -/

/-- The source words: row 0 of the edge list, then the nodes' own numbers. -/
def srcOf (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0

/-- The target words: row 1 of the edge list, then the nodes' own numbers. -/
def dstOf (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

/-- The in-degrees: a one added at each target word, from zero. -/
def degOf (dst : IVec S1700000 32) : FVec Ideal S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 dst)
    (broadcastInDim S1700000 ![] bcast_S_S1700000 (constant S_ .f32 0x3F800000#32))

/-- The nodes' factors. -/
def dinvOf (dst : IVec S1700000 32) : FVec Ideal S100000 .f32 :=
  select (cmpf .ogt (degOf dst) (broadcastInDim S100000 ![] bcast_S_S100000 (constant S_ .f32 0x00000000#32)))
    (Host.rsqrt (degOf dst)) (broadcastInDim S100000 ![] bcast_S_S100000 (constant S_ .f32 0x00000000#32))

/-- Rows of y taken at the normalised source words and added at the target words, from zero. -/
def aggOf (src dst : IVec S1700000 32) (y : FVec Ideal S100000x128 .f32) : FVec Ideal S100000x128 .f32 :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 dst)
    (Host.gather gather_S100000x128_S1700000x1_S1700000x128_1_0_n_n_0_1_1128 y
      (broadcastInDim S1700000x1 ![0] bcast_S1700000_S1700000x1_0
        (select (cmpi .slt src (broadcastInDim S1700000 ![] bcast_S_S1700000 (constantI S_ 32 0#32)))
          (addi src (broadcastInDim S1700000 ![] bcast_S_S1700000 (constantI S_ 32 100000#32))) src)))

/-! ## The terms read at an index -/

section Read
variable (src dst : IVec S1700000 32)

theorem zeros_apply {s : Shape} (h : S_.BroadcastsInDim s (![] : Fin 0 → Fin s.rank)) (j : s.Idx) :
    broadcastInDim s ![] h (constant (F := Ideal) S_ .f32 0x00000000#32) j = 0 :=
  Ideal.ofBits_zero_f32

theorem rsqrt_apply {s : Shape} (v : FVec Ideal s .f32) (j : s.Idx) : Host.rsqrt v j = Ideal.rsqrt (v j) := rfl

theorem degOf_apply (n : Fin 100000) : degOf dst (ix1 n) = deg (graphW src dst) oneW n := by
  unfold degOf deg
  refine (addVec_dst src dst scatter_S100000_S1700000x1_S1700000_n_0_0_1 _ rfl _ _ n).trans ?_
  refine congrArg₂ (· + ·) (zeros_apply _ _) (Finset.sum_congr rfl fun e _ => rfl)

theorem dinvOf_apply (n : Fin 100000) : dinvOf dst (ix1 n) = dinv (graphW src dst) oneW n := by
  unfold dinvOf dinv
  rw [select_apply, cmpf_apply, zeros_apply, Ideal.cmpf_def]
  rw [rsqrt_apply, degOf_apply src dst n]
  unfold Scalar.select Ideal.cmp
  by_cases h : (0 : EReal) < deg (graphW src dst) oneW n
  · rw [if_pos h, if_pos (by simp [h])]
  · rw [if_neg h, if_neg (by simp [h])]

theorem aggOf_apply (y : FVec Ideal S100000x128 .f32) (i : Fin 100000) (f : Fin 128) :
    aggOf src dst y (ix2 i f) = aggK (graphW src dst) (mat y) i f := by
  unfold aggOf aggK
  show Host.scatterAdd (F := Ideal) (φ := .f32) scatter_S100000x128_S1700000x1_S1700000x128_1_0_0_1 _ (colOf dst)
    (Host.gather gather_S100000x128_S1700000x1_S1700000x128_1_0_n_n_0_1_1128 y (colOf (wrapV src))) (ix2 i f) = _
  refine (addRows_dst src dst scatter_S100000x128_S1700000x1_S1700000x128_1_0_0_1 _ rfl _ _ i f).trans ?_
  refine congrArg₂ (· + ·) (zeros_apply _ _) (Finset.sum_congr rfl fun e _ => ?_)
  exact takeRows_src src dst gather_S100000x128_S1700000x1_S1700000x128_1_0_n_n_0_1_1128 _ rfl y e f

end Read

variable (W : Valuation τ sig (Elt Ideal))

/-! ## The stretches, one at a time, from any contents -/

theorem s0_src : StableHlo.after (hostOps0 (F := Ideal)) W (Proc.devRef .tc main_v3) = srcOf (W (Proc.devRef .tc main_arg1)) := by
  after_results; rfl
theorem s0_dst : StableHlo.after (hostOps0 (F := Ideal)) W (Proc.devRef .tc main_v6) = dstOf (W (Proc.devRef .tc main_arg1)) := by
  after_results; rfl
theorem s0_gt : StableHlo.after (hostOps0 (F := Ideal)) W (Proc.devRef .tc main_v12)
    = cmpf .ogt (degOf (dstOf (W (Proc.devRef .tc main_arg1)))) (broadcastInDim S100000 ![] bcast_S_S100000 (constant S_ .f32 0x00000000#32)) := by
  after_results; rfl
theorem s0_rsqrt : StableHlo.after (hostOps0 (F := Ideal)) W (Proc.devRef .tc main_v13)
    = Host.rsqrt (degOf (dstOf (W (Proc.devRef .tc main_arg1)))) := by
  after_results; rfl
theorem s0_zero : StableHlo.after (hostOps0 (F := Ideal)) W (Proc.devRef .tc main_cst_2) = constant (F := Ideal) S_ .f32 0x00000000#32 := by
  after_results

theorem s01_dinv : StableHlo.after (hostOps0_1 (F := Ideal)) W (Proc.devRef .tc main_v14)
    = select (W (Proc.devRef .tc main_v12)) (W (Proc.devRef .tc main_v13))
        (broadcastInDim S100000 ![] bcast_S_S100000 (W (Proc.devRef .tc main_cst_2))) := by
  after_results; rfl

theorem s02_col : StableHlo.after (hostOps0_2 (F := Ideal)) W (Proc.devRef .tc main_v15)
    = shapeCast S100000x1 (W (Proc.devRef .tc main_v14)) shapeCasts_S100000_S100000x1 := by
  after_results; rfl

theorem s1_agg : StableHlo.after (hostOps1 (F := Ideal)) W (Proc.devRef .tc main_v26)
    = aggOf (W (Proc.devRef .tc main_v3)) (W (Proc.devRef .tc main_v6)) (W (Proc.devRef .tc main_v16)) := by
  after_results; rfl
theorem s1_bias : StableHlo.after (hostOps1 (F := Ideal)) W (Proc.devRef .tc main_v27)
    = shapeCast S1x128 (W (Proc.devRef .tc main_arg3)) shapeCasts_S128_S1x128 := by
  after_results; rfl

theorem s2_agg : StableHlo.after (hostOps2 (F := Ideal)) W (Proc.devRef .tc main_v38)
    = aggOf (W (Proc.devRef .tc main_v3)) (W (Proc.devRef .tc main_v6)) (W (Proc.devRef .tc main_v28)) := by
  after_results; rfl
theorem s2_bias : StableHlo.after (hostOps2 (F := Ideal)) W (Proc.devRef .tc main_v39)
    = shapeCast S1x128 (W (Proc.devRef .tc main_arg5)) shapeCasts_S128_S1x128 := by
  after_results; rfl
theorem s2_bias3 : StableHlo.after (hostOps2 (F := Ideal)) W (Proc.devRef .tc main_v40)
    = shapeCast S1x2 (W (Proc.devRef .tc main_arg7)) shapeCasts_S2_S1x2 := by
  after_results; rfl

end Cert.KernelIdeal.Fold

end
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.LibRowOps.lean ====
/-
  Three keepdims-style layout steps of a row-wise computation, read as functions of the index, at the ideal
  values: a length-b array laid out as one row and repeated down a rows; an a × 1 column repeated across b
  columns; and the sum of every row of an a × b array.
-/
import Idealize.ShloMosaic.PureOps.Ideal.Laws
import Idealize.ShloMosaic.Lib.Pipeline.Value
import Idealize.ShloMosaic.Lib.ValueLayout

noncomputable section

open scoped BigOperators

namespace Cert.LibRowOps

open Idealize.ShloMosaic Idealize.ShloMosaic.ValueIdx

variable {α : Type}

/-- A length-b array reshaped to one row and broadcast down a rows holds, at (p, c), its entry c. -/
theorem row_bcast {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) :
    broadcastTo ⟨2, ![a, b]⟩ (shapeCast ⟨2, ![1, b]⟩ v h1) h2 = fun i => v (ix1 (i 1)) := by
  funext i
  exact (congrArg (broadcastTo ⟨2, ![a, b]⟩ (shapeCast ⟨2, ![1, b]⟩ v h1) h2) (eq_ix2 i)).trans
    ((broadcastTo_1b_ab_apply _ h2 (i 0) (i 1)).trans (shapeCast_a_1a_apply v h1 0 (i 1)))

/-- An a × 1 column broadcast across b columns holds, at (p, c), the column's entry p. -/
theorem col_bcast_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same, as a function of the index. -/
theorem col_bcast {a b : ℕ} (v : (⟨2, ![a, 1]⟩ : Shape).Idx → α) (h : (⟨2, ![a, 1]⟩ : Shape).Broadcasts ⟨2, ![a, b]⟩) :
    broadcastTo ⟨2, ![a, b]⟩ v h = fun i => v (ix2 (i 0) (0 : Fin 1)) := by
  funext i
  exact (congrArg (broadcastTo ⟨2, ![a, b]⟩ v h) (eq_ix2 i)).trans (col_bcast_apply v h (i 0) (i 1))

/-- The index that a row sum reads: row r, column k. -/
theorem lift_row {a b : ℕ} (h : (⟨2, ![a, b]⟩ : Shape).Reduces [1] ⟨1, ![a]⟩) (j : (⟨1, ![a]⟩ : Shape).Idx) (k : Fin b) :
    h.lift j k = ix2 (j 0) k := by
  funext c
  apply Fin.ext
  show h.liftVal j k.val c = (ix2 (j 0) k c).val
  match c with
  | ⟨0, _⟩ => simp [Shape.Reduces.liftVal]
  | ⟨1, _⟩ => simp [Shape.Reduces.liftVal]

/-- The sum over axis 1 of an a × b array from the zero accumulator is, at r, the sum of row r (the two side
    conditions typed as a printed program's proofs of them are). -/
theorem rowsum {a b : ℕ} (v : FVec Ideal ⟨2, ![a, b]⟩ .f32) (h : (⟨2, ![a, b]⟩ : Shape).Reduces [1] ⟨1, ![a]⟩)
    (hφ : FTy.f32 = FTy.f32 ∨ FTy.f32 = FTy.bf16) (hacc : (0x00000000#32 : BitVec 32) = 0x00000000#32) :
    multiReduction .add [1] ⟨1, ![a]⟩ v 0x00000000#32 h hφ hacc = fun j => ∑ k : Fin b, v (ix2 (j 0) k) := by
  funext j
  refine (Ideal.multiReduction_add_single v 0x00000000#32 h hφ hacc j).trans ?_
  exact Finset.sum_congr rfl fun k _ => congrArg v (lift_row h j k)

/-- The same, for an accumulator proof stated against the sum's neutral word. -/
theorem rowsum_neutral {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) :
    multiReduction .add [1] ⟨1, ![a]⟩ v 0x00000000#32 h hφ hacc = fun j => ∑ k : Fin b, v (ix2 (j 0) k) := by
  funext j
  refine (Ideal.multiReduction_add_single v 0x00000000#32 h hφ hacc j).trans ?_
  exact Finset.sum_congr rfl fun k _ => congrArg v (lift_row h j k)

end Cert.LibRowOps

end
-- ==== Proof.Region0.lean ====
/-
  The first region: a row-blocked matrix product scaled row by row.

  The grid has 25 points; point t loads rows 4000·t … 4000·t + 3999 of the input x and of the column of factors d, and the
  whole weight matrix W, and stores, at row p and column q of its block, ( Σ_k x(4000·t + p, k) · W(k, q) ) · d(4000·t + p).
  On extended reals rounding to bf16 is the identity and a matrix product accumulated from zero is the plain sum. Each
  point writes its block back, the 25 blocks tile the 100000 rows (row r is in the block of point r / 4000), so the output
  array ends holding, at (n, f), ( Σ_k x(n, k) · W(k, f) ) · d(n).
-/
import proofs.«114970_j5755256176696_2_alg».proof.Proof.Gen.KernelIdeal.Frame
import proofs.«114970_j5755256176696_2_alg».proof.Proof.Views
import proofs.«114970_j5755256176696_2_alg».proof.Proof.LibMatmul
import proofs.«114970_j5755256176696_2_alg».proof.Proof.LibRowOps
import Idealize.ShloMosaic.Lib.Pipeline.Value
import Idealize.ShloMosaic.Lib.ValueLayout

noncomputable section

open scoped BigOperators

namespace Cert.KernelIdeal.Regions

open Cert.KernelIdeal Cert.KernelIdeal.Gen Cert.Gcn Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The first region's stored value at row p, column q of a block: the product of the block's rows with the whole
    weight matrix, Σ_k x(p,k)·w(k,q), times the row's factor. Rounding to bf16 is the identity on extended reals, and a
    matrix product accumulated from zero is the plain sum. -/
theorem pay0_apply (x0 : Vec Ideal S4000x128 .f32) (x1 : Vec Ideal S128x128 .f32) (x2 : Vec Ideal S4000x1 .f32) (p : Fin 4000) (q : Fin 128) :
    k0_pay1 x0 x1 x2 (ix2 p q) = (∑ k : Fin 128, x0 (ix2 p k) * x1 (ix2 k q)) * x2 (ix2 p (0 : Fin 1)) := by
  unfold k0_pay1
  refine (mulf_apply _ _ _).trans ?_
  refine congr (congrArg HMul.hMul ?_) ?_
  · refine (congrFun (LibMatmul.matmul_zero_eq dot_S4000x128_S128x128_S4000x128_1_0_0_1_n_n rfl rfl rfl rfl rfl rfl none _ _) (ix2 p q)).trans ?_
    exact LibMatmul.MM_apply _ _ p q
  · rw [shapeCast_self]
    exact LibRowOps.col_bcast_apply _ _ p q

theorem hz : (![0, 0] : Fin 2 → Nat) = fun _ => 0 := funext fun a => by fin_cases a <;> rfl

/-- The printed index maps over the grid: the row-blocked windows sit at block (t, 0), the weight matrix at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Block t of the input rows is rows 4000·t … 4000·t + 3999 of the input. -/
theorem iblk0_0_apply (c : Dev nD) (t : Fin cfg0.N) (p : Fin 4000) (q : Fin 128) (h : 4000 * t.val + p.val < 100000) :
    (iblk0 V c 0 t : S4000x128.Idx → EReal) (ix2 p q) = (V c main_arg0 : S100000x128.Idx → EReal) (ix2 ⟨4000 * t.val + p.val, h⟩ q) := by
  obtain ⟨e0, e1, -⟩ := idx_facts0 t
  unfold iblk0
  rw [View.read_apply]
  show V c main_arg0 _ = V c main_arg0 _
  congr 1
  funext a; apply Fin.ext
  match a with
  | ⟨0, _⟩ => show win0_0.index t (0 : Fin 2) * 4000 + 1 * p.val = 4000 * t.val + p.val; rw [e0]; omega
  | ⟨1, _⟩ => show win0_0.index t (1 : Fin 2) * 128 + 1 * q.val = q.val; rw [e1]; omega

/-- The weight matrix's one block is the whole matrix. -/
theorem iblk0_1_apply (c : Dev nD) (t : Fin cfg0.N) (k : Fin 128) (q : Fin 128) :
    (iblk0 V c 1 t : S128x128.Idx → EReal) (ix2 k q) = (V c main_arg2 : S128x128.Idx → EReal) (ix2 k q) := by
  obtain ⟨-, -, e0, e1, -⟩ := idx_facts0 t
  unfold iblk0
  rw [View.read_apply]
  show V c main_arg2 _ = V c main_arg2 _
  congr 1
  funext a; apply Fin.ext
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- Block t of the column of factors is its rows 4000·t … 4000·t + 3999. -/
theorem iblk0_2_apply (c : Dev nD) (t : Fin cfg0.N) (p : Fin 4000) (h : 4000 * t.val + p.val < 100000) :
    (iblk0 V c 2 t : S4000x1.Idx → EReal) (ix2 p (0 : Fin 1)) = (V c main_v15 : S100000x1.Idx → EReal) (ix2 ⟨4000 * t.val + p.val, h⟩ (⟨0, Nat.one_pos⟩ : Fin 1)) := by
  obtain ⟨-, -, -, -, e0, e1, -⟩ := idx_facts0 t
  unfold iblk0
  rw [View.read_apply]
  show V c main_v15 _ = V c main_v15 _
  congr 1
  funext a; apply Fin.ext
  match a with
  | ⟨0, _⟩ => show win0_2.index t (0 : Fin 2) * 4000 + 1 * p.val = 4000 * t.val + p.val; rw [e0]; omega
  | ⟨1, _⟩ => show win0_2.index t (1 : Fin 2) * 1 + 1 * 0 = 0; rw [e1]

/-- What the output array holds after the region: at (n, f), the matrix product's entry times row n's factor. -/
def G0 (c : Dev nD) : S100000x128.Idx → EReal := fun i =>
  preK (col (V c main_v15 : S100000x1.Idx → EReal)) (mat (V c main_arg0 : S100000x128.Idx → EReal)) (mat (V c main_arg2 : S128x128.Idx → EReal)) (i 0) (i 1)

/-- WHAT POINT t WRITES BACK is block t of the output function: the stored value at (p, q) reads row 4000·t + p of the
    input and of the factors and the whole weight matrix. -/
theorem flushed0_eq (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  unfold out0_3
  rw [View.canon_unit_zero hz]
  simp only [View.ld_unit_zero (S := S4000x128) hz, View.ld_unit_zero (S := S128x128) hz, View.ld_unit_zero (S := S4000x1) hz]
  funext j
  revert j
  show ∀ j : S4000x128.Idx, k0_pay1 (iblk0 V c 0 t) (iblk0 V c 1 t) (iblk0 V c 2 t) j = (G0 V c) (((cfg0.win 3).blk t).view.emb j)
  intro j
  obtain ⟨p, q, rfl⟩ : ∃ (p : Fin 4000) (q : Fin 128), j = ix2 p q := ⟨j 0, j 1, eq_ix2 j⟩
  have hN : cfg0.N = 25 := N_0
  have ht : t.val < 25 := hN ▸ t.isLt
  have hb : 4000 * t.val + p.val < 100000 := by have := p.isLt; omega
  obtain ⟨-, -, -, -, -, -, e0, e1⟩ := idx_facts0 t
  have hemb : ((cfg0.win 3).blk t).view.emb (ix2 p q) = (ix2 ⟨4000 * t.val + p.val, hb⟩ q : S100000x128.Idx) := by
    funext a; apply Fin.ext
    match a with
    | ⟨0, _⟩ => show win0_3.index t (0 : Fin 2) * 4000 + 1 * p.val = 4000 * t.val + p.val; rw [e0]; omega
    | ⟨1, _⟩ => show win0_3.index t (1 : Fin 2) * 128 + 1 * q.val = q.val; rw [e1]; omega
  rw [hemb]
  refine (pay0_apply _ _ _ p q).trans ?_
  have hR : G0 V c (ix2 ⟨4000 * t.val + p.val, hb⟩ q)
      = (∑ k : Fin 128, mat (V c main_arg0 : S100000x128.Idx → EReal) ⟨4000 * t.val + p.val, hb⟩ k * mat (V c main_arg2 : S128x128.Idx → EReal) k q)
        * col (V c main_v15 : S100000x1.Idx → EReal) ⟨4000 * t.val + p.val, hb⟩ := rfl
  rw [hR, iblk0_2_apply V c t p hb]
  refine congr (congrArg HMul.hMul (Finset.sum_congr rfl fun k _ => ?_)) rfl
  rw [iblk0_0_apply V c t p k hb, iblk0_1_apply V c t k q]
  rfl

/-- An index of the output array is in point t's block iff each coordinate is in the block's range on its axis. -/
theorem mem_blk0 (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v16).slice (win0_3.rect t)).set ↔ _
  rw [View.set_slice_whole, Rect.mem_set_unit]
  exact Iff.rfl

/-- Every row is written: row r lies in the block of point r / 4000. -/
theorem cover0 (i : S100000x128.Idx) : ∃ t : Fin cfg0.N, (cfg0.win 3).flush t = true ∧ i ∈ ((cfg0.win 3).blk t).view.set := by
  have hN : cfg0.N = 25 := N_0
  have hi0 : (i 0).val < 100000 := (i 0).isLt
  have hi1 : (i 1).val < 128 := (i 1).isLt
  have hlt : (i 0).val / 4000 < cfg0.N := by rw [hN]; omega
  obtain ⟨-, -, -, -, -, -, e0, e1⟩ := idx_facts0 ⟨(i 0).val / 4000, hlt⟩
  refine ⟨⟨(i 0).val / 4000, hlt⟩, flush0_3 _, ?_⟩
  rw [mem_blk0]
  intro a
  match a with
  | ⟨0, _⟩ =>
    show win0_3.index ⟨(i 0).val / 4000, hlt⟩ (0 : Fin 2) * 4000 ≤ (i 0).val ∧ (i 0).val < win0_3.index ⟨(i 0).val / 4000, hlt⟩ (0 : Fin 2) * 4000 + 4000
    rw [e0]; show (i 0).val / 4000 * 4000 ≤ (i 0).val ∧ (i 0).val < (i 0).val / 4000 * 4000 + 4000; omega
  | ⟨1, _⟩ =>
    show win0_3.index ⟨(i 0).val / 4000, hlt⟩ (1 : Fin 2) * 128 ≤ (i 1).val ∧ (i 1).val < win0_3.index ⟨(i 0).val / 4000, hlt⟩ (1 : Fin 2) * 128 + 128
    rw [e1]; omega

/-- THE OUTPUT ARRAY after all 25 points is the output function of the arrays the region found. -/
theorem final0 (c : Dev nD) : (dat0 V c).arrAt 3 cfg0.N = G0 V c :=
  (dat0 V c).arrAt_eq_of_cover 3 (G0 V c) (fun t _ => flushed0_eq V c t) cover0

/-- The first region leaves, at node n and feature f, the product of the input's row n with the first weight matrix,
    scaled by node n's factor: Σ_k x(n,k)·W1(k,f) · d(n). -/
theorem region0_arr (c : Dev nD) (n : Fin 100000) (f : Fin 128) :
    ((dat0 (F := Ideal) V c).arrAt 3 cfg0.N : S100000x128.Idx → EReal) (ix2 n f)
      = preK (col (V c main_v15 : S100000x1.Idx → EReal)) (mat (V c main_arg0 : S100000x128.Idx → EReal)) (mat (V c main_arg2 : S128x128.Idx → EReal)) n f := by
  rw [final0]
  rfl

end Cert.KernelIdeal.Regions

end
-- ==== Proof.Region1.lean ====
/-
  The second region: the first layer's activation fused into the second layer's row-blocked, row-scaled matrix product.

  The grid has 25 points; point t loads rows 4000·t … 4000·t + 3999 of the aggregate a and of the column of factors d, and
  the whole bias row b and the whole weight matrix W. At row p of its block it forms the activated row
  h(p, k) = max( a(4000·t + p, k) · d(4000·t + p) + b(k), 0 ) and stores ( Σ_k h(p, k) · W(k, q) ) · d(4000·t + p).
  On extended reals rounding to bf16 is the identity, a matrix product accumulated from zero is the plain sum, and the
  word the maximum clips at is zero. Each point writes its block back, the 25 blocks tile the 100000 rows (row r is in the
  block of point r / 4000), so the output array ends holding, at (n, f), ( Σ_k max(a(n,k)·d(n) + b(k), 0) · W(k, f) ) · d(n).
-/
import proofs.«114970_j5755256176696_2_alg».proof.Proof.Gen.KernelIdeal.Frame
import proofs.«114970_j5755256176696_2_alg».proof.Proof.Views
import proofs.«114970_j5755256176696_2_alg».proof.Proof.LibMatmul
import proofs.«114970_j5755256176696_2_alg».proof.Proof.LibRowOps
import Idealize.ShloMosaic.Lib.Pipeline.Value
import Idealize.ShloMosaic.Lib.ValueLayout

noncomputable section

open scoped BigOperators

namespace Cert.KernelIdeal.Regions

open Cert.KernelIdeal Cert.KernelIdeal.Gen Cert.Gcn Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The second region's stored value at row p, column q of a block: the activated row, max(a(p,k)·d(p) + b(k), 0) over k,
    times the whole weight matrix, times the row's factor. Rounding to bf16 is the identity on extended reals, a matrix
    product accumulated from zero is the plain sum, and the word the maximum clips at is zero. -/
theorem pay1_apply (x0 : Vec Ideal S4000x128 .f32) (x1 : Vec Ideal S4000x1 .f32) (x2 : Vec Ideal S1x128 .f32)
    (x3 : Vec Ideal S128x128 .f32) (x4 : Vec Ideal S4000x1 .f32) (p : Fin 4000) (q : Fin 128) :
    k1_pay1 x0 x1 x2 x3 x4 (ix2 p q)
      = (∑ k : Fin 128, max (x0 (ix2 p k) * x1 (ix2 p (0 : Fin 1)) + x2 (ix2 (0 : Fin 1) k)) 0 * x3 (ix2 k q)) * x4 (ix2 p (0 : Fin 1)) := by
  unfold k1_pay1
  refine (mulf_apply _ _ _).trans ?_
  refine congr (congrArg HMul.hMul ?_) ?_
  · refine (congrFun (LibMatmul.matmul_zero_eq dot_S4000x128_S128x128_S4000x128_1_0_0_1_n_n rfl rfl rfl rfl rfl rfl none _ _) (ix2 p q)).trans ?_
    refine (LibMatmul.MM_apply _ _ p q).trans ?_
    refine Finset.sum_congr rfl fun k _ => ?_
    refine congr (congrArg HMul.hMul ?_) rfl
    simp only [truncf_apply, maximumf_apply, addf_apply, mulf_apply, broadcast_apply, shapeCast_self]
    rw [LibRowOps.col_bcast_apply, broadcastTo_1b_ab_apply]
    exact congrArg (max _) Ideal.ofBits_zero_f32
  · rw [shapeCast_self]
    exact LibRowOps.col_bcast_apply _ _ p q

theorem hz1 : (![0, 0] : Fin 2 → Nat) = fun _ => 0 := funext fun a => by fin_cases a <;> rfl

/-- The printed index maps over the grid: the row-blocked windows sit at block (t, 0), the bias row and the weight matrix
    at block (0, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Block t of the aggregate is its rows 4000·t … 4000·t + 3999. -/
theorem iblk1_0_apply (c : Dev nD) (t : Fin cfg1.N) (p : Fin 4000) (q : Fin 128) (h : 4000 * t.val + p.val < 100000) :
    (iblk1 V c 0 t : S4000x128.Idx → EReal) (ix2 p q) = (V c main_v26 : S100000x128.Idx → EReal) (ix2 ⟨4000 * t.val + p.val, h⟩ q) := by
  obtain ⟨e0, e1, -⟩ := idx_facts1 t
  unfold iblk1
  rw [View.read_apply]
  show V c main_v26 _ = V c main_v26 _
  congr 1
  funext a; apply Fin.ext
  match a with
  | ⟨0, _⟩ => show win1_0.index t (0 : Fin 2) * 4000 + 1 * p.val = 4000 * t.val + p.val; rw [e0]; omega
  | ⟨1, _⟩ => show win1_0.index t (1 : Fin 2) * 128 + 1 * q.val = q.val; rw [e1]; omega

/-- Block t of the column of factors is its rows 4000·t … 4000·t + 3999. -/
theorem iblk1_1_apply (c : Dev nD) (t : Fin cfg1.N) (p : Fin 4000) (h : 4000 * t.val + p.val < 100000) :
    (iblk1 V c 1 t : S4000x1.Idx → EReal) (ix2 p (0 : Fin 1)) = (V c main_v15 : S100000x1.Idx → EReal) (ix2 ⟨4000 * t.val + p.val, h⟩ (⟨0, Nat.one_pos⟩ : Fin 1)) := by
  obtain ⟨-, -, e0, e1, -⟩ := idx_facts1 t
  unfold iblk1
  rw [View.read_apply]
  show V c main_v15 _ = V c main_v15 _
  congr 1
  funext a; apply Fin.ext
  match a with
  | ⟨0, _⟩ => show win1_1.index t (0 : Fin 2) * 4000 + 1 * p.val = 4000 * t.val + p.val; rw [e0]; omega
  | ⟨1, _⟩ => show win1_1.index t (1 : Fin 2) * 1 + 1 * 0 = 0; rw [e1]

/-- The bias row's one block is the whole row. -/
theorem iblk1_2_apply (c : Dev nD) (t : Fin cfg1.N) (k : Fin 128) :
    (iblk1 V c 2 t : S1x128.Idx → EReal) (ix2 (0 : Fin 1) k) = (V c main_v27 : S1x128.Idx → EReal) (ix2 (⟨0, Nat.one_pos⟩ : Fin 1) k) := by
  obtain ⟨-, -, -, -, e0, e1, -⟩ := idx_facts1 t
  unfold iblk1
  rw [View.read_apply]
  show V c main_v27 _ = V c main_v27 _
  congr 1
  funext a; apply Fin.ext
  match a with
  | ⟨0, _⟩ => show win1_2.index t (0 : Fin 2) * 1 + 1 * 0 = 0; rw [e0]
  | ⟨1, _⟩ => show win1_2.index t (1 : Fin 2) * 128 + 1 * k.val = k.val; rw [e1]; omega

/-- The weight matrix's one block is the whole matrix. -/
theorem iblk1_3_apply (c : Dev nD) (t : Fin cfg1.N) (k : Fin 128) (q : Fin 128) :
    (iblk1 V c 3 t : S128x128.Idx → EReal) (ix2 k q) = (V c main_arg4 : S128x128.Idx → EReal) (ix2 k q) := by
  obtain ⟨-, -, -, -, -, -, e0, e1, -⟩ := idx_facts1 t
  unfold iblk1
  rw [View.read_apply]
  show V c main_arg4 _ = V c main_arg4 _
  congr 1
  funext a; apply Fin.ext
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- What the output array holds after the region: at (n, f), the activated aggregate's row n times the weight matrix,
    times row n's factor. -/
def G1 (c : Dev nD) : S100000x128.Idx → EReal := fun i =>
  preK (col (V c main_v15 : S100000x1.Idx → EReal))
    (actK (col (V c main_v15 : S100000x1.Idx → EReal)) (mat (V c main_v26 : S100000x128.Idx → EReal)) (row (V c main_v27 : S1x128.Idx → EReal)))
    (mat (V c main_arg4 : S128x128.Idx → EReal)) (i 0) (i 1)

/-- WHAT POINT t WRITES BACK is block t of the output function: the stored value at (p, q) reads row 4000·t + p of the
    aggregate and of the factors, the whole bias row and the whole weight matrix. -/
theorem flushed1_eq (c : Dev nD) (t : Fin cfg1.N) :
    (dat1 V c).flushed 4 t = ((cfg1.win 4).blk t).view.read (Elt Ideal) (G1 V c) := by
  show (cfg1.win 4).cut (grid1.coords t) ((dat1 V c).after 4 t) = _
  rw [after1_4]
  unfold out1_4
  rw [View.canon_unit_zero hz1]
  simp only [View.ld_unit_zero (S := S4000x128) hz1, View.ld_unit_zero (S := S128x128) hz1, View.ld_unit_zero (S := S4000x1) hz1, View.ld_unit_zero (S := S1x128) hz1]
  funext j
  revert j
  show ∀ j : S4000x128.Idx, k1_pay1 (iblk1 V c 0 t) (iblk1 V c 1 t) (iblk1 V c 2 t) (iblk1 V c 3 t) (iblk1 V c 1 t) j = (G1 V c) (((cfg1.win 4).blk t).view.emb j)
  intro j
  obtain ⟨p, q, rfl⟩ : ∃ (p : Fin 4000) (q : Fin 128), j = ix2 p q := ⟨j 0, j 1, eq_ix2 j⟩
  have hN : cfg1.N = 25 := N_1
  have ht : t.val < 25 := hN ▸ t.isLt
  have hb : 4000 * t.val + p.val < 100000 := by have := p.isLt; omega
  obtain ⟨-, -, -, -, -, -, -, -, e0, e1⟩ := idx_facts1 t
  have hemb : ((cfg1.win 4).blk t).view.emb (ix2 p q) = (ix2 ⟨4000 * t.val + p.val, hb⟩ q : S100000x128.Idx) := by
    funext a; apply Fin.ext
    match a with
    | ⟨0, _⟩ => show win1_4.index t (0 : Fin 2) * 4000 + 1 * p.val = 4000 * t.val + p.val; rw [e0]; omega
    | ⟨1, _⟩ => show win1_4.index t (1 : Fin 2) * 128 + 1 * q.val = q.val; rw [e1]; omega
  rw [hemb]
  refine (pay1_apply _ _ _ _ _ p q).trans ?_
  have hR : G1 V c (ix2 ⟨4000 * t.val + p.val, hb⟩ q)
      = (∑ k : Fin 128, max (mat (V c main_v26 : S100000x128.Idx → EReal) ⟨4000 * t.val + p.val, hb⟩ k
              * col (V c main_v15 : S100000x1.Idx → EReal) ⟨4000 * t.val + p.val, hb⟩ + row (V c main_v27 : S1x128.Idx → EReal) k) 0
            * mat (V c main_arg4 : S128x128.Idx → EReal) k q)
        * col (V c main_v15 : S100000x1.Idx → EReal) ⟨4000 * t.val + p.val, hb⟩ := rfl
  rw [hR, iblk1_1_apply V c t p hb]
  refine congr (congrArg HMul.hMul (Finset.sum_congr rfl fun k _ => ?_)) rfl
  rw [iblk1_0_apply V c t p k hb, iblk1_2_apply V c t k, iblk1_3_apply V c t k q]
  rfl

/-- An index of the output array is in point t's block iff each coordinate is in the block's range on its axis. -/
theorem mem_blk1 (t : Fin cfg1.N) (i : S100000x128.Idx) :
    i ∈ ((cfg1.win 4).blk t).view.set ↔ ∀ a : Fin 2, win1_4.index t a * S4000x128.size a ≤ (i a).val ∧ (i a).val < win1_4.index t a * S4000x128.size a + S4000x128.size a := by
  show i ∈ ((View.whole main_v28).slice (win1_4.rect t)).set ↔ _
  rw [View.set_slice_whole, Rect.mem_set_unit]
  exact Iff.rfl

/-- Every row is written: row r lies in the block of point r / 4000. -/
theorem cover1 (i : S100000x128.Idx) : ∃ t : Fin cfg1.N, (cfg1.win 4).flush t = true ∧ i ∈ ((cfg1.win 4).blk t).view.set := by
  have hN : cfg1.N = 25 := N_1
  have hi0 : (i 0).val < 100000 := (i 0).isLt
  have hi1 : (i 1).val < 128 := (i 1).isLt
  have hlt : (i 0).val / 4000 < cfg1.N := by rw [hN]; omega
  obtain ⟨-, -, -, -, -, -, -, -, e0, e1⟩ := idx_facts1 ⟨(i 0).val / 4000, hlt⟩
  refine ⟨⟨(i 0).val / 4000, hlt⟩, flush1_4 _, ?_⟩
  rw [mem_blk1]
  intro a
  match a with
  | ⟨0, _⟩ =>
    show win1_4.index ⟨(i 0).val / 4000, hlt⟩ (0 : Fin 2) * 4000 ≤ (i 0).val ∧ (i 0).val < win1_4.index ⟨(i 0).val / 4000, hlt⟩ (0 : Fin 2) * 4000 + 4000
    rw [e0]; show (i 0).val / 4000 * 4000 ≤ (i 0).val ∧ (i 0).val < (i 0).val / 4000 * 4000 + 4000; omega
  | ⟨1, _⟩ =>
    show win1_4.index ⟨(i 0).val / 4000, hlt⟩ (1 : Fin 2) * 128 ≤ (i 1).val ∧ (i 1).val < win1_4.index ⟨(i 0).val / 4000, hlt⟩ (1 : Fin 2) * 128 + 128
    rw [e1]; omega

/-- THE OUTPUT ARRAY after all 25 points is the output function of the arrays the region found. -/
theorem final1 (c : Dev nD) : (dat1 V c).arrAt 4 cfg1.N = G1 V c :=
  (dat1 V c).arrAt_eq_of_cover 4 (G1 V c) (fun t _ => flushed1_eq V c t) cover1

/-- The second region leaves, at node n and feature f, the activated aggregate's row n, max(a(n,k)·d(n) + b(k), 0) over k,
    times the second weight matrix, scaled by node n's factor. -/
theorem region1_arr (c : Dev nD) (n : Fin 100000) (f : Fin 128) :
    ((dat1 (F := Ideal) V c).arrAt 4 cfg1.N : S100000x128.Idx → EReal) (ix2 n f)
      = preK (col (V c main_v15 : S100000x1.Idx → EReal))
          (actK (col (V c main_v15 : S100000x1.Idx → EReal)) (mat (V c main_v26 : S100000x128.Idx → EReal)) (row (V c main_v27 : S1x128.Idx → EReal)))
          (mat (V c main_arg4 : S128x128.Idx → EReal)) n f := by
  rw [final1]
  rfl

end Cert.KernelIdeal.Regions

end
-- ==== Proof.LibSliceSum.lean ====
/-
  Three more layout and reduction steps read at an index written by coordinates, for any extents:
  one column cut out of a matrix, one row cut out of a matrix, and the sum over the columns of each
  row (the vector unit's add-reduction over axis 1) at the ideal values.
-/
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Cert.LibSliceSum

open Idealize.ShloMosaic Idealize.ShloMosaic.ValueIdx

variable {α : Type}

/-- Column c of a matrix, cut out as a one-column matrix: entry (p, 0) is entry (p, c). -/
theorem colSlice_apply {a b : Nat} (c : Nat) (hc : c < b) (x : (⟨2, ![a, b]⟩ : Shape).Idx → α)
    (h : (⟨2, ![a, b]⟩ : Shape).Slices ![0, c] ⟨2, ![a, 1]⟩) (p : Fin a) :
    extractStridedSlice ⟨2, ![a, 1]⟩ ![0, c] x h (ix2 p (0 : Fin 1)) = x (ix2 p (⟨c, hc⟩ : Fin b)) :=
  extractStridedSlice_apply ![0, c] x h (ix2 p (0 : Fin 1)) (ix2 p (⟨c, hc⟩ : Fin b)) (fun d => match d with
    | ⟨0, _⟩ => by show p.val = 0 + p.val; omega
    | ⟨1, _⟩ => by show c = c + 0; omega)

/-- Row r of a matrix, cut out as a one-row matrix: entry (0, q) is entry (r, q). -/
theorem rowSlice_apply {a b : Nat} (r : Nat) (hr : r < a) (x : (⟨2, ![a, b]⟩ : Shape).Idx → α)
    (h : (⟨2, ![a, b]⟩ : Shape).Slices ![r, 0] ⟨2, ![1, b]⟩) (q : Fin b) :
    extractStridedSlice ⟨2, ![1, b]⟩ ![r, 0] x h (ix2 (0 : Fin 1) q) = x (ix2 (⟨r, hr⟩ : Fin a) q) :=
  extractStridedSlice_apply ![r, 0] x h (ix2 (0 : Fin 1) q) (ix2 (⟨r, hr⟩ : Fin a) q) (fun d => match d with
    | ⟨0, _⟩ => by show r = r + 0; omega
    | ⟨1, _⟩ => by show q.val = 0 + q.val; omega)

/-- Row p of a matrix with column k put back is (p, k). -/
theorem lift_cols {a b : Nat} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The vector unit's sum over the columns of each row, at row p: the sum of that row's entries. -/
theorem rowSum_apply {a b : Nat} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ k : Fin b, src (ix2 p k) := by
  rw [Ideal.multiReduction_add_single]
  have hf : (fun k => src (h.lift (ix1 p) k)) = fun k : Fin b => src (ix2 p k) :=
    funext fun k => congrArg src (lift_cols h p k)
  exact congrArg (fun f => ∑ k : Fin b, f k) hf

/-- The same sum, with the accumulator the zero word and the side facts spelt as a printed program
    spells them. -/
theorem rowSum_zero_apply {a b : Nat} (src : FVec Ideal ⟨2, ![a, b]⟩ .f32)
    (h : (⟨2, ![a, b]⟩ : Shape).Reduces [1] (⟨1, ![a]⟩ : Shape)) (hφ : FTy.f32 = FTy.f32 ∨ FTy.f32 = FTy.bf16)
    (hacc : (0x00000000#32 : BitVec 32) = 0x00000000#32) (p : Fin a) :
    multiReduction .add [1] ⟨1, ![a]⟩ src 0x00000000#32 h hφ hacc (ix1 p) = ∑ k : Fin b, src (ix2 p k) :=
  rowSum_apply src _ h hφ hacc p

/-- The vector unit's maximum over the columns of each row started from the word of −∞, at row p:
    the fold of `max` from that word's value over the row's entries. -/
theorem rowMax_negInf_apply {a b : Nat} (src : FVec Ideal ⟨2, ![a, b]⟩ .f32)
    (h : (⟨2, ![a, b]⟩ : Shape).Reduces [1] (⟨1, ![a]⟩ : Shape)) (hφ : FTy.f32 = FTy.f32 ∨ FTy.f32 = FTy.bf16)
    (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  have hf : (src ∘ h.lift (ix1 p)) = fun k : Fin b => src (ix2 p k) :=
    funext fun k => congrArg src (lift_cols h p k)
  exact congrArg (fun f => Finset.fold max (Ideal.ofBits .f32 0xFF800000#32) f (Finset.univ : Finset (Fin b))) hf

end Cert.LibSliceSum

end
-- ==== Proof.Region2.lean ====
/-
  The last region of the network: each of its 25 grid points takes 4000 rows of the aggregate and of the column of
  factors, the bias rows and the last weights whole, and stores 4000 rows of

      log-softmax ( max(aggregate · factor + bias, 0) · W₃ + b₃ ) ,

  the softmax's row maximum folded from the word of −∞ and its sum of exponentials from zero. First the body's value
  at an index of a block (the pointwise steps read through; a column repeated across a row reads its own row; the matrix
  product into the zero accumulator is a plain sum; the two reductions over the 2 columns are a fold of max and a sum).
  Then the blocks: the row-blocked windows' block t is rows 4000·t … 4000·t + 3999 and the small operands' block is
  the whole operand, every output row depends on its own input row only, so each block written back is a block of one
  array, and the 25 blocks cover the 100000 rows (row r lies in block r / 4000).
-/
import proofs.«114970_j5755256176696_2_alg».proof.Proof.Gen.KernelIdeal.Frame
import proofs.«114970_j5755256176696_2_alg».proof.Proof.Views
import proofs.«114970_j5755256176696_2_alg».proof.Proof.LibMatmul
import proofs.«114970_j5755256176696_2_alg».proof.Proof.LibRowOps
import proofs.«114970_j5755256176696_2_alg».proof.Proof.LibSliceSum
import proofs.«114970_j5755256176696_2_alg».proof.Proof.LibTake
import Idealize.ShloMosaic.Lib.Pipeline.Value
import Idealize.ShloMosaic.Lib.ValueLayout
import Idealize.ShloMosaic.Lib.ValueIdx

set_option maxRecDepth 16384

noncomputable section

open scoped BigOperators

namespace Cert.KernelIdeal.Regions

open Cert.KernelIdeal Cert.KernelIdeal.Gen Cert.Gcn Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

namespace R2

/-! ## The body at an index -/

/-- Rows scaled by the column of factors, the bias row added, clipped at zero: entry (p, f) of the activation. -/
theorem act_apply (x0 : Vec Ideal S4000x128 .f32) (x1 : Vec Ideal S4000x1 .f32) (x2 : Vec Ideal S1x128 .f32)
    (p : Fin 4000) (f : Fin 128) :
    (truncf .bf16 (maximumf
        (addf (mulf (shapeCast S4000x128 x0 shapeCasts_S4000x128_S4000x128)
                (broadcastTo S4000x128 (shapeCast S4000x1 x1 shapeCasts_S4000x1_S4000x1) broadcasts_S4000x1_S4000x128))
          (broadcastTo S4000x128 (shapeCast S1x128 x2 shapeCasts_S1x128_S1x128) broadcasts_S1x128_S4000x128))
        (broadcast S4000x128 (FloatOps.ofBits (F := Ideal) .f32 0x00000000#32))) bitsLt_bf16_f32 : FVec Ideal S4000x128 .bf16) (ix2 p f)
      = actK (col (x1 : S4000x1.Idx → EReal)) (mat (x0 : S4000x128.Idx → EReal)) (row (x2 : S1x128.Idx → EReal)) p f := by
  rw [shapeCast_self, shapeCast_self, shapeCast_self]
  show max (x0 (ix2 p f) * broadcastTo S4000x128 x1 broadcasts_S4000x1_S4000x128 (ix2 p f)
        + broadcastTo S4000x128 x2 broadcasts_S1x128_S4000x128 (ix2 p f)) (Ideal.ofBits .f32 0x00000000#32) = _
  rw [LibRowOps.col_bcast_apply, broadcastTo_1b_ab_apply, Ideal.ofBits_zero_f32]
  rfl

/-- The last linear layer: the product with the weights into the zero accumulator plus the bias row, entry (p, c). -/
theorem logits_apply (T : FVec Ideal S4000x128 .bf16) (x3 : Vec Ideal S128x2 .f32) (x4 : Vec Ideal S1x2 .f32)
    (p : Fin 4000) (c : Fin 2) :
    (addf (matmul dot_S4000x128_S128x2_S4000x2_1_0_0_1_n_n none T (truncf .bf16 x3 bitsLt_bf16_f32)
            (constant S4000x2 .f32 0x00000000#32))
        (broadcastTo S4000x2 (shapeCast S1x2 x4 shapeCasts_S1x2_S1x2) broadcasts_S1x2_S4000x2) : FVec Ideal S4000x2 .f32) (ix2 p c)
      = logits (mat (T : S4000x128.Idx → EReal)) (mat (x3 : S128x2.Idx → EReal)) (row (x4 : S1x2.Idx → EReal)) p c := by
  rw [shapeCast_self]
  show matmul dot_S4000x128_S128x2_S4000x2_1_0_0_1_n_n none T (truncf .bf16 x3 bitsLt_bf16_f32)
        (constant S4000x2 .f32 0x00000000#32) (ix2 p c)
      + broadcastTo S4000x2 x4 broadcasts_S1x2_S4000x2 (ix2 p c) = _
  rw [broadcastTo_1b_ab_apply]
  have hmm := LibMatmul.matmul_zero_eq (A := 4000) (K := 128) (B := 2) dot_S4000x128_S128x2_S4000x2_1_0_0_1_n_n
    rfl rfl rfl rfl rfl rfl none T (truncf .bf16 x3 bitsLt_bf16_f32 : FVec Ideal S128x2 .bf16)
  refine (congrArg (· + _) ((congrFun hmm (ix2 p c)).trans (LibMatmul.MM_apply _ _ p c))).trans ?_
  rfl

/-- The row-wise log-softmax: each entry less the sum of the row's maximum and the logarithm of the row's sum of
    exponentials of entries less that maximum; the maximum folded from the word of −∞, the sum from zero. -/
theorem lsm_apply (L : FVec Ideal S4000x2 .f32) (hφ : FTy.f32 = FTy.f32 ∨ FTy.f32 = FTy.bf16)
    (h1 : (0xFF800000#32 : BitVec 32) = 0xFF800000#32) (h0 : (0x00000000#32 : BitVec 32) = 0x00000000#32)
    (p : Fin 4000) (q : Fin 2) :
    (subf L (broadcastTo S4000x2
        (addf (shapeCast S4000x1 (multiReduction .maximumf [1] S4000 L 0xFF800000#32 reduces_S4000x2_S4000 hφ h1) shapeCasts_S4000_S4000x1)
          (log (shapeCast S4000x1
            (multiReduction .add [1] S4000
              (exp (subf L (broadcastTo S4000x2
                (shapeCast S4000x1 (multiReduction .maximumf [1] S4000 L 0xFF800000#32 reduces_S4000x2_S4000 hφ h1) shapeCasts_S4000_S4000x1)
                broadcasts_S4000x1_S4000x2)))
              0x00000000#32 reduces_S4000x2_S4000 hφ h0) shapeCasts_S4000_S4000x1)))
        broadcasts_S4000x1_S4000x2) : FVec Ideal S4000x2 .f32) (ix2 p q)
      = lsmK negInfW (fun c => (L : S4000x2.Idx → EReal) (ix2 p c)) q := by
  have hm : ∀ r : Fin 4000, (multiReduction (F := Ideal) .maximumf [1] S4000 L 0xFF800000#32 reduces_S4000x2_S4000 hφ h1 : S4000.Idx → EReal) (ix1 r)
      = rowMax negInfW (fun c => (L : S4000x2.Idx → EReal) (ix2 r c)) := fun r =>
    LibSliceSum.rowMax_negInf_apply L reduces_S4000x2_S4000 hφ h1 r
  generalize (multiReduction (F := Ideal) .maximumf [1] S4000 L 0xFF800000#32 reduces_S4000x2_S4000 hφ h1) = M at hm ⊢
  have hmc : ∀ (r : Fin 4000) (u : Fin 1), (shapeCast S4000x1 M shapeCasts_S4000_S4000x1 : S4000x1.Idx → EReal) (ix2 r u)
      = rowMax negInfW (fun c => (L : S4000x2.Idx → EReal) (ix2 r c)) := fun r u =>
    (LibTake.castCol_apply shapeCasts_S4000_S4000x1 M r u).trans (hm r)
  generalize (shapeCast S4000x1 M shapeCasts_S4000_S4000x1) = Mc at hmc ⊢
  have hs : ∀ r : Fin 4000, (multiReduction (F := Ideal) .add [1] S4000
        (exp (subf L (broadcastTo S4000x2 Mc broadcasts_S4000x1_S4000x2))) 0x00000000#32 reduces_S4000x2_S4000 hφ h0 : S4000.Idx → EReal) (ix1 r)
      = ∑ c : Fin 2, Ideal.exp ((L : S4000x2.Idx → EReal) (ix2 r c) - rowMax negInfW (fun c => (L : S4000x2.Idx → EReal) (ix2 r c))) := fun r => by
    refine (LibSliceSum.rowSum_zero_apply _ reduces_S4000x2_S4000 hφ h0 r).trans (Finset.sum_congr rfl fun c _ => ?_)
    show Ideal.exp (L (ix2 r c) - broadcastTo S4000x2 Mc broadcasts_S4000x1_S4000x2 (ix2 r c)) = _
    rw [LibRowOps.col_bcast_apply, hmc]
  generalize (multiReduction (F := Ideal) .add [1] S4000
        (exp (subf L (broadcastTo S4000x2 Mc broadcasts_S4000x1_S4000x2))) 0x00000000#32 reduces_S4000x2_S4000 hφ h0) = Sm at hs ⊢
  show L (ix2 p q) - broadcastTo S4000x2 (addf Mc (log (shapeCast S4000x1 Sm shapeCasts_S4000_S4000x1))) broadcasts_S4000x1_S4000x2 (ix2 p q) = _
  rw [LibRowOps.col_bcast_apply]
  show L (ix2 p q) - (Mc (ix2 p (0 : Fin 1)) + Ideal.log (shapeCast S4000x1 Sm shapeCasts_S4000_S4000x1 (ix2 p (0 : Fin 1)))) = _
  rw [hmc, LibTake.castCol_apply, hs]
  rfl

/-- THE BODY AT AN INDEX: entry (p, q) of what the body stores is the log-softmax of row p's logits, themselves the
    last linear layer of row p's activation. -/
theorem pay_apply (x0 : Vec Ideal S4000x128 .f32) (x1 : Vec Ideal S4000x1 .f32) (x2 : Vec Ideal S1x128 .f32)
    (x3 : Vec Ideal S128x2 .f32) (x4 : Vec Ideal S1x2 .f32) (p : Fin 4000) (q : Fin 2) :
    (k2_pay1 (F := Ideal) x0 x1 x2 x3 x4 : S4000x2.Idx → EReal) (ix2 p q)
      = lsmK negInfW (logits (actK (col (x1 : S4000x1.Idx → EReal)) (mat (x0 : S4000x128.Idx → EReal)) (row (x2 : S1x128.Idx → EReal)))
          (mat (x3 : S128x2.Idx → EReal)) (row (x4 : S1x2.Idx → EReal)) p) q := by
  unfold k2_pay1
  refine (lsm_apply _ _ _ _ p q).trans ?_
  refine congrArg (fun l => lsmK negInfW l q) (funext fun c => ?_)
  refine (logits_apply _ x3 x4 p c).trans ?_
  unfold logits lin
  refine congrArg (· + _) (Finset.sum_congr rfl fun k _ => congrArg (· * _) ?_)
  exact act_apply x0 x1 x2 p k

/-! ## From the blocks to the array -/

/-- The log-softmax of a row's logits reads only that row of the factors and of the aggregate: two networks whose
    rows p and i agree, with the same bias rows and weights, give the same row of outputs. -/
theorem lsm_row_congr {N M B K : ℕ} (bot : EReal) (d : Fin N → EReal) (a : Fin N → Fin B → EReal) (b : Fin B → EReal)
    (W : Fin B → Fin K → EReal) (b3 : Fin K → EReal) (d' : Fin M → EReal) (a' : Fin M → Fin B → EReal) (b' : Fin B → EReal)
    (W' : Fin B → Fin K → EReal) (b3' : Fin K → EReal) (p : Fin N) (i : Fin M) (hd : d p = d' i) (ha : ∀ f, a p f = a' i f)
    (hb : ∀ f, b f = b' f) (hW : ∀ k c, W k c = W' k c) (hb3 : ∀ c, b3 c = b3' c) (q : Fin K) :
    lsmK bot (logits (actK d a b) W b3 p) q = lsmK bot (logits (actK d' a' b') W' b3' i) q := by
  have h : logits (actK d a b) W b3 p = logits (actK d' a' b') W' b3' i := funext fun c => by
    unfold logits lin actK
    rw [hb3 c]
    exact congrArg (· + _) (Finset.sum_congr rfl fun k _ => by rw [hd, ha k, hb k, hW k c])
  rw [h]

/-- The array the region leaves: row i is the log-softmax of the logits of row i of the activation. -/
def G2 (c : Dev nD) : S100000x2.Idx → EReal := fun j =>
  lsmK negInfW
    (logits (actK (col (V c main_v15 : S100000x1.Idx → EReal)) (mat (V c main_v38 : S100000x128.Idx → EReal)) (row (V c main_v39 : S1x128.Idx → EReal)))
      (mat (V c main_arg6 : S128x2.Idx → EReal)) (row (V c main_v40 : S1x2.Idx → EReal)) (j 0)) (j 1)

theorem hz : (![0, 0] : Fin 2 → Nat) = fun _ => 0 := funext fun a => by fin_cases a <;> rfl

/-- The printed index maps, decided over the grid: the row-blocked windows sit at block (t, 0), the small operands
    at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The aggregate's block at point t is rows 4000·t … 4000·t + 3999 of the aggregate. -/
theorem blk0_apply (c : Dev nD) (t : Fin cfg2.N) (p : Fin 4000) (q : Fin 128) (h : 4000 * t.val + p.val < 100000) :
    (iblk2 V c 0 t : S4000x128.Idx → EReal) (ix2 p q)
      = (V c main_v38 : S100000x128.Idx → EReal) (ix2 (⟨4000 * t.val + p.val, h⟩ : Fin 100000) q) := by
  obtain ⟨e0, e1, -⟩ := idx_facts t
  show (V c main_v38 : S100000x128.Idx → EReal) (((cfg2.win 0).blk t).view.emb (ix2 p q)) = _
  refine congrArg _ (funext fun a => Fin.ext ?_)
  match a with
  | ⟨0, _⟩ => show win2_0.index t (0 : Fin 2) * 4000 + 1 * p.val = 4000 * t.val + p.val; rw [e0]; omega
  | ⟨1, _⟩ => show win2_0.index t (1 : Fin 2) * 128 + 1 * q.val = q.val; rw [e1]; omega

/-- The factors' block at point t is rows 4000·t … 4000·t + 3999 of the column of factors. -/
theorem blk1_apply (c : Dev nD) (t : Fin cfg2.N) (p : Fin 4000) (q : Fin 1) (h : 4000 * t.val + p.val < 100000) :
    (iblk2 V c 1 t : S4000x1.Idx → EReal) (ix2 p q)
      = (V c main_v15 : S100000x1.Idx → EReal) (ix2 (⟨4000 * t.val + p.val, h⟩ : Fin 100000) q) := by
  obtain ⟨-, -, e0, e1, -⟩ := idx_facts t
  show (V c main_v15 : S100000x1.Idx → EReal) (((cfg2.win 1).blk t).view.emb (ix2 p q)) = _
  refine congrArg _ (funext fun a => Fin.ext ?_)
  match a with
  | ⟨0, _⟩ => show win2_1.index t (0 : Fin 2) * 4000 + 1 * p.val = 4000 * t.val + p.val; rw [e0]; omega
  | ⟨1, _⟩ => show win2_1.index t (1 : Fin 2) * 1 + 1 * q.val = q.val; rw [e1]; omega

/-- The first bias row's block is the whole row at every point. -/
theorem blk2_apply (c : Dev nD) (t : Fin cfg2.N) (p : Fin 1) (q : Fin 128) :
    (iblk2 V c 2 t : S1x128.Idx → EReal) (ix2 p q) = (V c main_v39 : S1x128.Idx → EReal) (ix2 p q) := by
  obtain ⟨-, -, -, -, e0, e1, -⟩ := idx_facts t
  show (V c main_v39 : S1x128.Idx → EReal) (((cfg2.win 2).blk t).view.emb (ix2 p q)) = _
  refine congrArg _ (funext fun a => Fin.ext ?_)
  match a with
  | ⟨0, _⟩ => show win2_2.index t (0 : Fin 2) * 1 + 1 * p.val = p.val; rw [e0]; omega
  | ⟨1, _⟩ => show win2_2.index t (1 : Fin 2) * 128 + 1 * q.val = q.val; rw [e1]; omega

/-- The weights' block is the whole matrix at every point. -/
theorem blk3_apply (c : Dev nD) (t : Fin cfg2.N) (p : Fin 128) (q : Fin 2) :
    (iblk2 V c 3 t : S128x2.Idx → EReal) (ix2 p q) = (V c main_arg6 : S128x2.Idx → EReal) (ix2 p q) := by
  obtain ⟨-, -, -, -, -, -, e0, e1, -⟩ := idx_facts t
  show (V c main_arg6 : S128x2.Idx → EReal) (((cfg2.win 3).blk t).view.emb (ix2 p q)) = _
  refine congrArg _ (funext fun a => Fin.ext ?_)
  match a with
  | ⟨0, _⟩ => show win2_3.index t (0 : Fin 2) * 128 + 1 * p.val = p.val; rw [e0]; omega
  | ⟨1, _⟩ => show win2_3.index t (1 : Fin 2) * 2 + 1 * q.val = q.val; rw [e1]; omega

/-- The last bias row's block is the whole row at every point. -/
theorem blk4_apply (c : Dev nD) (t : Fin cfg2.N) (p : Fin 1) (q : Fin 2) :
    (iblk2 V c 4 t : S1x2.Idx → EReal) (ix2 p q) = (V c main_v40 : S1x2.Idx → EReal) (ix2 p q) := by
  obtain ⟨-, -, -, -, -, -, -, -, e0, e1, -⟩ := idx_facts t
  show (V c main_v40 : S1x2.Idx → EReal) (((cfg2.win 4).blk t).view.emb (ix2 p q)) = _
  refine congrArg _ (funext fun a => Fin.ext ?_)
  match a with
  | ⟨0, _⟩ => show win2_4.index t (0 : Fin 2) * 1 + 1 * p.val = p.val; rw [e0]; omega
  | ⟨1, _⟩ => show win2_4.index t (1 : Fin 2) * 2 + 1 * q.val = q.val; rw [e1]; omega

/-- What the body stores at point t, at (p, q), is entry (4000·t + p, q) of the array G2. -/
theorem pay_blk (c : Dev nD) (t : Fin cfg2.N) (p : Fin 4000) (q : Fin 2) (h : 4000 * t.val + p.val < 100000) :
    (k2_pay1 (F := Ideal) (iblk2 V c 0 t) (iblk2 V c 1 t) (iblk2 V c 2 t) (iblk2 V c 3 t) (iblk2 V c 4 t) : S4000x2.Idx → EReal) (ix2 p q)
      = G2 V c (ix2 (⟨4000 * t.val + p.val, h⟩ : Fin 100000) q) := by
  refine (pay_apply (iblk2 V c 0 t) (iblk2 V c 1 t) (iblk2 V c 2 t) (iblk2 V c 3 t) (iblk2 V c 4 t) p q).trans ?_
  exact lsm_row_congr negInfW
    (col (iblk2 V c 1 t : S4000x1.Idx → EReal)) (mat (iblk2 V c 0 t : S4000x128.Idx → EReal)) (row (iblk2 V c 2 t : S1x128.Idx → EReal))
    (mat (iblk2 V c 3 t : S128x2.Idx → EReal)) (row (iblk2 V c 4 t : S1x2.Idx → EReal))
    (col (V c main_v15 : S100000x1.Idx → EReal)) (mat (V c main_v38 : S100000x128.Idx → EReal)) (row (V c main_v39 : S1x128.Idx → EReal))
    (mat (V c main_arg6 : S128x2.Idx → EReal)) (row (V c main_v40 : S1x2.Idx → EReal))
    p (⟨4000 * t.val + p.val, h⟩ : Fin 100000)
    (blk1_apply V c t p (⟨0, Nat.one_pos⟩ : Fin 1) h) (fun f => blk0_apply V c t p f h)
    (fun f => blk2_apply V c t (⟨0, Nat.one_pos⟩ : Fin 1) f) (fun k c' => blk3_apply V c t k c')
    (fun c' => blk4_apply V c t (⟨0, Nat.one_pos⟩ : Fin 1) c') q

/-- The same at any index of the block and any index of the array whose coordinates are the block's, offset by the
    block's first row. -/
theorem pay_blk_idx (c : Dev nD) (t : Fin cfg2.N) (j : S4000x2.Idx) (i : S100000x2.Idx)
    (h0 : (i 0).val = 4000 * t.val + (j 0).val) (h1 : (i 1).val = (j 1).val) :
    (k2_pay1 (F := Ideal) (iblk2 V c 0 t) (iblk2 V c 1 t) (iblk2 V c 2 t) (iblk2 V c 3 t) (iblk2 V c 4 t) : S4000x2.Idx → EReal) j
      = G2 V c i := by
  obtain ⟨p, q, rfl⟩ : ∃ (p : Fin 4000) (q : Fin 2), j = ix2 p q := ⟨j 0, j 1, eq_ix2 j⟩
  have hi0 : (i 0).val < 100000 := (i 0).isLt
  have h : 4000 * t.val + p.val < 100000 := by
    have : (i 0).val = 4000 * t.val + p.val := h0
    omega
  have hi : i = ix2 (⟨4000 * t.val + p.val, h⟩ : Fin 100000) q := funext fun a => Fin.ext (by
    match a with
    | ⟨0, _⟩ => exact h0
    | ⟨1, _⟩ => exact h1)
  rw [hi]
  exact pay_blk V c t p q h

/-- WHAT POINT t WRITES BACK is block t of G2. -/
theorem flushed_eq (c : Dev nD) (t : Fin cfg2.N) :
    (dat2 (F := Ideal) V c).flushed 5 t = ((cfg2.win 5).blk t).view.read (Elt Ideal) (G2 V c) := by
  show (cfg2.win 5).cut (grid2.coords t) ((dat2 (F := Ideal) V c).after 5 t) = _
  rw [after2_5]
  unfold out2_5
  rw [View.canon_unit_zero hz]
  simp only [View.ld_unit_zero (S := S4000x128) hz, View.ld_unit_zero (S := S4000x1) hz, View.ld_unit_zero (S := S1x128) hz,
    View.ld_unit_zero (S := S128x2) hz, View.ld_unit_zero (S := S1x2) hz]
  obtain ⟨-, -, -, -, -, -, -, -, -, -, e0, e1⟩ := idx_facts t
  funext j
  show (k2_pay1 (F := Ideal) (iblk2 V c 0 t) (iblk2 V c 1 t) (iblk2 V c 2 t) (iblk2 V c 3 t) (iblk2 V c 4 t) : S4000x2.Idx → EReal)
      ((win2 5).xinj (grid2.coords t) j) = G2 V c (((cfg2.win 5).blk t).view.emb j)
  refine pay_blk_idx V c t ((win2 5).xinj (grid2.coords t) j) (((cfg2.win 5).blk t).view.emb j) ?_ ?_
  · show win2_5.index t (0 : Fin 2) * 4000 + 1 * (j 0).val = 4000 * t.val + (j 0).val
    rw [e0]; omega
  · show win2_5.index t (1 : Fin 2) * 2 + 1 * (j 1).val = (j 1).val
    rw [e1]; omega

/-- An index of the array is in point t's block iff each coordinate is in the block's range on its axis. -/
theorem mem_blk (t : Fin cfg2.N) (i : S100000x2.Idx) :
    i ∈ ((cfg2.win 5).blk t).view.set ↔ ∀ a : Fin 2, win2_5.index t a * S4000x2.size a ≤ (i a).val ∧ (i a).val < win2_5.index t a * S4000x2.size a + S4000x2.size a := by
  show i ∈ ((View.whole main_v41).slice (win2_5.rect t)).set ↔ _
  rw [View.set_slice_whole, Rect.mem_set_unit]
  exact Iff.rfl

/-- Row r of the array is in the block of point r / 4000, and every point writes its block back. -/
theorem covered (i : S100000x2.Idx) :
    ∃ t : Fin cfg2.N, (cfg2.win 5).flush t = true ∧ i ∈ ((cfg2.win 5).blk t).view.set := by
  have hN : cfg2.N = 25 := N_2
  have hi0 : (i 0).val < 100000 := (i 0).isLt
  have hi1 : (i 1).val < 2 := (i 1).isLt
  let t : Fin cfg2.N := ⟨(i 0).val / 4000, by rw [hN]; omega⟩
  have htv : t.val = (i 0).val / 4000 := rfl
  obtain ⟨-, -, -, -, -, -, -, -, -, -, e0, e1⟩ := idx_facts t
  refine ⟨t, flush2_5 t, ?_⟩
  rw [mem_blk]
  intro a
  match a with
  | ⟨0, _⟩ => show win2_5.index t (0 : Fin 2) * 4000 ≤ (i 0).val ∧ (i 0).val < win2_5.index t (0 : Fin 2) * 4000 + 4000; rw [e0, htv]; omega
  | ⟨1, _⟩ => show win2_5.index t (1 : Fin 2) * 2 ≤ (i 1).val ∧ (i 1).val < win2_5.index t (1 : Fin 2) * 2 + 2; rw [e1]; omega

/-- THE ARRAY after all 25 points is G2. -/
theorem final (c : Dev nD) : (dat2 (F := Ideal) V c).arrAt 5 cfg2.N = G2 V c :=
  (dat2 (F := Ideal) V c).arrAt_eq_of_cover 5 (G2 V c) (fun t _ => flushed_eq V c t) covered

end R2

/-- Region 2 (the final kernel): after its 25 grid points the output array holds, at (i, k), the log-softmax (the row
    maximum folded from the word of −∞) of the logits of node i, the last linear layer applied to the activation
    max(aggregate · factor + bias, 0) of node i; rows are independent, so the 25 row blocks assemble the whole array. -/
theorem region2_arr (c : Dev nD) (i : Fin 100000) (k : Fin 2) :
    ((dat2 (F := Ideal) V c).arrAt 5 cfg2.N : S100000x2.Idx → EReal) (ix2 i k)
      = lsmK negInfW
          (logits (actK (col (V c main_v15 : S100000x1.Idx → EReal)) (mat (V c main_v38 : S100000x128.Idx → EReal)) (row (V c main_v39 : S1x128.Idx → EReal)))
             (mat (V c main_arg6 : S128x2.Idx → EReal)) (row (V c main_v40 : S1x2.Idx → EReal)) i) k :=
  congrFun (R2.final V c) (ix2 i k)

end Cert.KernelIdeal.Regions

end
-- ==== Proof.KernelValue.lean ====
/-
  The idealized kernel's result array as the two-layer network of the launch memory.

  The program is three row-blocked regions among stretches of host operations. Following the buffers from the launch
  to the return: the first stretch forms the edge list's source and target words (the given edges, then one self-loop
  per node), the in-degrees and the nodes' factors d as a column; the first region leaves (x·W1)(n, f)·d(n); the second
  stretch takes those rows at the source words and adds them at the target words, from zero, and recasts the first bias
  as a row; the second region activates, max(a(n,k)·d(n) + b1(k), 0), multiplies by W2 and scales by d(n); the third
  stretch aggregates again and recasts the last two biases; the third region activates, forms the logits and takes
  the row-wise log-softmax. A buffer that a stretch or a region does not write keeps its contents, so every argument is
  read as launched and the word vectors and the factors' column are the same at all three regions. Put together this
  is the network with the scaling done before and after the aggregation.
-/
import proofs.«114970_j5755256176696_2_alg».proof.Proof.KernelHost
import proofs.«114970_j5755256176696_2_alg».proof.Proof.Region0
import proofs.«114970_j5755256176696_2_alg».proof.Proof.Region1
import proofs.«114970_j5755256176696_2_alg».proof.Proof.Region2
import proofs.«114970_j5755256176696_2_alg».proof.Proof.LibTake

set_option maxRecDepth 16384

noncomputable section

open scoped BigOperators

namespace Cert.KernelIdeal.Fold

open Cert.KernelIdeal Cert.KernelIdeal.Gen Cert.KernelIdeal.Regions Cert.Gcn
open Idealize.ShloMosaic Idealize.ShloMosaic.TcCoe Idealize.ShloMosaic.StableHlo Idealize.ShloMosaic.ValueIdx Idealize.SL.Sem

/-! ## Buffers a stretch of host operations does not write keep their contents -/

section Kept
variable (W : Valuation τ sig (Elt Ideal))

theorem kept0 :
    StableHlo.after (hostOps0 (F := Ideal)) W (Proc.devRef .tc main_arg0) = W (Proc.devRef .tc main_arg0)
    ∧ StableHlo.after (hostOps0 (F := Ideal)) W (Proc.devRef .tc main_arg2) = W (Proc.devRef .tc main_arg2)
    ∧ StableHlo.after (hostOps0 (F := Ideal)) W (Proc.devRef .tc main_arg3) = W (Proc.devRef .tc main_arg3)
    ∧ StableHlo.after (hostOps0 (F := Ideal)) W (Proc.devRef .tc main_arg4) = W (Proc.devRef .tc main_arg4)
    ∧ StableHlo.after (hostOps0 (F := Ideal)) W (Proc.devRef .tc main_arg5) = W (Proc.devRef .tc main_arg5)
    ∧ StableHlo.after (hostOps0 (F := Ideal)) W (Proc.devRef .tc main_arg6) = W (Proc.devRef .tc main_arg6)
    ∧ StableHlo.after (hostOps0 (F := Ideal)) W (Proc.devRef .tc main_arg7) = W (Proc.devRef .tc main_arg7) := by
  refine ⟨?_, ?_, ?_, ?_, ?_, ?_, ?_⟩ <;> after_results

theorem kept01 :
    StableHlo.after (hostOps0_1 (F := Ideal)) W (Proc.devRef .tc main_arg0) = W (Proc.devRef .tc main_arg0)
    ∧ StableHlo.after (hostOps0_1 (F := Ideal)) W (Proc.devRef .tc main_arg2) = W (Proc.devRef .tc main_arg2)
    ∧ StableHlo.after (hostOps0_1 (F := Ideal)) W (Proc.devRef .tc main_arg3) = W (Proc.devRef .tc main_arg3)
    ∧ StableHlo.after (hostOps0_1 (F := Ideal)) W (Proc.devRef .tc main_arg4) = W (Proc.devRef .tc main_arg4)
    ∧ StableHlo.after (hostOps0_1 (F := Ideal)) W (Proc.devRef .tc main_arg5) = W (Proc.devRef .tc main_arg5)
    ∧ StableHlo.after (hostOps0_1 (F := Ideal)) W (Proc.devRef .tc main_arg6) = W (Proc.devRef .tc main_arg6)
    ∧ StableHlo.after (hostOps0_1 (F := Ideal)) W (Proc.devRef .tc main_arg7) = W (Proc.devRef .tc main_arg7)
    ∧ StableHlo.after (hostOps0_1 (F := Ideal)) W (Proc.devRef .tc main_v3) = W (Proc.devRef .tc main_v3)
    ∧ StableHlo.after (hostOps0_1 (F := Ideal)) W (Proc.devRef .tc main_v6) = W (Proc.devRef .tc main_v6) := by
  refine ⟨?_, ?_, ?_, ?_, ?_, ?_, ?_, ?_, ?_⟩ <;> after_results

theorem kept02 :
    StableHlo.after (hostOps0_2 (F := Ideal)) W (Proc.devRef .tc main_arg0) = W (Proc.devRef .tc main_arg0)
    ∧ StableHlo.after (hostOps0_2 (F := Ideal)) W (Proc.devRef .tc main_arg2) = W (Proc.devRef .tc main_arg2)
    ∧ StableHlo.after (hostOps0_2 (F := Ideal)) W (Proc.devRef .tc main_arg3) = W (Proc.devRef .tc main_arg3)
    ∧ StableHlo.after (hostOps0_2 (F := Ideal)) W (Proc.devRef .tc main_arg4) = W (Proc.devRef .tc main_arg4)
    ∧ StableHlo.after (hostOps0_2 (F := Ideal)) W (Proc.devRef .tc main_arg5) = W (Proc.devRef .tc main_arg5)
    ∧ StableHlo.after (hostOps0_2 (F := Ideal)) W (Proc.devRef .tc main_arg6) = W (Proc.devRef .tc main_arg6)
    ∧ StableHlo.after (hostOps0_2 (F := Ideal)) W (Proc.devRef .tc main_arg7) = W (Proc.devRef .tc main_arg7)
    ∧ StableHlo.after (hostOps0_2 (F := Ideal)) W (Proc.devRef .tc main_v3) = W (Proc.devRef .tc main_v3)
    ∧ StableHlo.after (hostOps0_2 (F := Ideal)) W (Proc.devRef .tc main_v6) = W (Proc.devRef .tc main_v6) := by
  refine ⟨?_, ?_, ?_, ?_, ?_, ?_, ?_, ?_, ?_⟩ <;> after_results

theorem kept1 :
    StableHlo.after (hostOps1 (F := Ideal)) W (Proc.devRef .tc main_arg4) = W (Proc.devRef .tc main_arg4)
    ∧ StableHlo.after (hostOps1 (F := Ideal)) W (Proc.devRef .tc main_arg5) = W (Proc.devRef .tc main_arg5)
    ∧ StableHlo.after (hostOps1 (F := Ideal)) W (Proc.devRef .tc main_arg6) = W (Proc.devRef .tc main_arg6)
    ∧ StableHlo.after (hostOps1 (F := Ideal)) W (Proc.devRef .tc main_arg7) = W (Proc.devRef .tc main_arg7)
    ∧ StableHlo.after (hostOps1 (F := Ideal)) W (Proc.devRef .tc main_v3) = W (Proc.devRef .tc main_v3)
    ∧ StableHlo.after (hostOps1 (F := Ideal)) W (Proc.devRef .tc main_v6) = W (Proc.devRef .tc main_v6)
    ∧ StableHlo.after (hostOps1 (F := Ideal)) W (Proc.devRef .tc main_v15) = W (Proc.devRef .tc main_v15) := by
  refine ⟨?_, ?_, ?_, ?_, ?_, ?_, ?_⟩ <;> after_results

theorem kept2 :
    StableHlo.after (hostOps2 (F := Ideal)) W (Proc.devRef .tc main_arg6) = W (Proc.devRef .tc main_arg6)
    ∧ StableHlo.after (hostOps2 (F := Ideal)) W (Proc.devRef .tc main_v15) = W (Proc.devRef .tc main_v15) := by
  refine ⟨?_, ?_⟩ <;> after_results

end Kept

variable (m : (ℓ : Loc nD τ sig) → Buf (Elt Ideal) ℓ) (ρ : Dev nD → PrngReg) (c : Dev nD)

/-- The graph of the launch memory's edge list. -/
abbrev gK : Graph 100000 1700000 := graphW (srcOf (m ((c : Thread nD τ).loc main_arg1))) (dstOf (m ((c : Thread nD τ).loc main_arg1)))

/-- The source and target words of the launch memory's edge list. -/
abbrev srcK : IVec S1700000 32 := srcOf (m ((c : Thread nD τ).loc main_arg1))
abbrev dstK : IVec S1700000 32 := dstOf (m ((c : Thread nD τ).loc main_arg1))

/-! ## Before the first region -/

/-- After the first stretch of host operations the factors' vector is the inverse-square-root-or-zero of the in-degrees. -/
theorem W2_v14 : W2 m ρ c (Proc.devRef .tc main_v14) = dinvOf (dstK m c) := by
  have h12 : W1 m ρ c (Proc.devRef .tc main_v12) = _ := s0_gt (W0 m ρ c)
  have h13 : W1 m ρ c (Proc.devRef .tc main_v13) = _ := s0_rsqrt (W0 m ρ c)
  have hc : W1 m ρ c (Proc.devRef .tc main_cst_2) = _ := s0_zero (W0 m ρ c)
  refine (s01_dinv (W1 m ρ c)).trans ?_
  rw [h12, h13, hc]
  rfl

theorem W3_v15 : W3 m ρ c (Proc.devRef .tc main_v15) = shapeCast S100000x1 (dinvOf (dstK m c)) shapeCasts_S100000_S100000x1 := by
  refine (s02_col (W2 m ρ c)).trans ?_
  rw [W2_v14]

/-- At the first region's entry the arguments are as launched and the word vectors are the edge list's. -/
theorem W3_kept :
    W3 m ρ c (Proc.devRef .tc main_arg0) = m ((c : Thread nD τ).loc main_arg0)
    ∧ W3 m ρ c (Proc.devRef .tc main_arg2) = m ((c : Thread nD τ).loc main_arg2)
    ∧ W3 m ρ c (Proc.devRef .tc main_arg3) = m ((c : Thread nD τ).loc main_arg3)
    ∧ W3 m ρ c (Proc.devRef .tc main_arg4) = m ((c : Thread nD τ).loc main_arg4)
    ∧ W3 m ρ c (Proc.devRef .tc main_arg5) = m ((c : Thread nD τ).loc main_arg5)
    ∧ W3 m ρ c (Proc.devRef .tc main_arg6) = m ((c : Thread nD τ).loc main_arg6)
    ∧ W3 m ρ c (Proc.devRef .tc main_arg7) = m ((c : Thread nD τ).loc main_arg7)
    ∧ W3 m ρ c (Proc.devRef .tc main_v3) = srcK m c
    ∧ W3 m ρ c (Proc.devRef .tc main_v6) = dstK m c := by
  obtain ⟨a0, a2, a3, a4, a5, a6, a7⟩ := kept0 (W0 m ρ c)
  obtain ⟨b0, b2, b3, b4, b5, b6, b7, b8, b9⟩ := kept01 (W1 m ρ c)
  obtain ⟨c0, c2, c3, c4, c5, c6, c7, c8, c9⟩ := kept02 (W2 m ρ c)
  exact ⟨c0.trans (b0.trans a0), c2.trans (b2.trans a2), c3.trans (b3.trans a3), c4.trans (b4.trans a4),
    c5.trans (b5.trans a5), c6.trans (b6.trans a6), c7.trans (b7.trans a7),
    c8.trans (b8.trans (s0_src (W0 m ρ c))), c9.trans (b9.trans (s0_dst (W0 m ρ c)))⟩

/-- The factors' column at the first region's entry is the graph's factors. -/
theorem V3_col : col (V3 m ρ c main_v15 : S100000x1.Idx → EReal) = dinv (gK m c) oneW := by
  funext n
  show (W3 m ρ c (Proc.devRef .tc main_v15) : S100000x1.Idx → EReal) (ix2 n (⟨0, Nat.one_pos⟩ : Fin 1)) = _
  rw [W3_v15]
  exact (LibTake.castCol_apply _ _ n _).trans (dinvOf_apply (srcK m c) (dstK m c) n)

/-! ## The first region -/

/-- The first region's output: the input times the first weight matrix, each row scaled by its node's factor. -/
theorem W4_v16 : mat (W4 m ρ c (Proc.devRef .tc main_v16) : S100000x128.Idx → EReal)
    = preK (dinv (gK m c) oneW) (mat (m ((c : Thread nD τ).loc main_arg0))) (mat (m ((c : Thread nD τ).loc main_arg2))) := by
  obtain ⟨a0, a2, -⟩ := W3_kept m ρ c
  have h : W4 m ρ c (Proc.devRef .tc main_v16) = (dat0 (V3 m ρ) c).arrAt 3 cfg0.N := W4_arr m ρ c 3
  have e0 : V3 m ρ c main_arg0 = m ((c : Thread nD τ).loc main_arg0) := a0
  have e2 : V3 m ρ c main_arg2 = m ((c : Thread nD τ).loc main_arg2) := a2
  funext n f
  show (W4 m ρ c (Proc.devRef .tc main_v16) : S100000x128.Idx → EReal) (ix2 n f) = _
  rw [h]
  refine (region0_arr (V3 m ρ) c n f).trans ?_
  rw [V3_col, e0, e2]

/-- What the first region does not write is as at its entry. -/
theorem W4_kept :
    W4 m ρ c (Proc.devRef .tc main_arg3) = m ((c : Thread nD τ).loc main_arg3)
    ∧ W4 m ρ c (Proc.devRef .tc main_arg4) = m ((c : Thread nD τ).loc main_arg4)
    ∧ W4 m ρ c (Proc.devRef .tc main_arg5) = m ((c : Thread nD τ).loc main_arg5)
    ∧ W4 m ρ c (Proc.devRef .tc main_arg6) = m ((c : Thread nD τ).loc main_arg6)
    ∧ W4 m ρ c (Proc.devRef .tc main_arg7) = m ((c : Thread nD τ).loc main_arg7)
    ∧ W4 m ρ c (Proc.devRef .tc main_v3) = srcK m c
    ∧ W4 m ρ c (Proc.devRef .tc main_v6) = dstK m c
    ∧ W4 m ρ c (Proc.devRef .tc main_v15) = W3 m ρ c (Proc.devRef .tc main_v15) := by
  obtain ⟨-, -, a3, a4, a5, a6, a7, a8, a9⟩ := W3_kept m ρ c
  exact ⟨(W4_of_ne m ρ c main_arg3 (by decide)).trans a3, (W4_of_ne m ρ c main_arg4 (by decide)).trans a4,
    (W4_of_ne m ρ c main_arg5 (by decide)).trans a5, (W4_of_ne m ρ c main_arg6 (by decide)).trans a6,
    (W4_of_ne m ρ c main_arg7 (by decide)).trans a7, (W4_of_ne m ρ c main_v3 (by decide)).trans a8,
    (W4_of_ne m ρ c main_v6 (by decide)).trans a9,
    (W4_arr m ρ c 2).trans (((dat0 (V3 m ρ) c).arrAt_in 2 rfl _).trans (A_eq0 (V3 m ρ) c 2))⟩

/-! ## Between the first and the second region -/

/-- The factors' column at the second region's entry is the graph's factors. -/
theorem V5_col : col (V5 m ρ c main_v15 : S100000x1.Idx → EReal) = dinv (gK m c) oneW := by
  obtain ⟨-, -, -, -, -, -, k15⟩ := kept1 (W4 m ρ c)
  obtain ⟨-, -, -, -, -, -, -, w15⟩ := W4_kept m ρ c
  have e : V5 m ρ c main_v15 = V3 m ρ c main_v15 := k15.trans w15
  rw [e]
  exact V3_col m ρ c

/-- The aggregate at the second region's entry: the first region's rows summed into the nodes their edges land on. -/
theorem V5_agg : mat (V5 m ρ c main_v26 : S100000x128.Idx → EReal)
    = aggK (gK m c) (preK (dinv (gK m c) oneW) (mat (m ((c : Thread nD τ).loc main_arg0))) (mat (m ((c : Thread nD τ).loc main_arg2)))) := by
  obtain ⟨-, -, -, -, -, w3, w6, -⟩ := W4_kept m ρ c
  have e : V5 m ρ c main_v26 = aggOf (srcK m c) (dstK m c) (W4 m ρ c (Proc.devRef .tc main_v16)) := by
    refine (s1_agg (W4 m ρ c)).trans ?_
    rw [w3, w6]
  funext i f
  show (V5 m ρ c main_v26 : S100000x128.Idx → EReal) (ix2 i f) = _
  rw [e]
  refine (aggOf_apply (srcK m c) (dstK m c) _ i f).trans ?_
  rw [W4_v16]

/-- The first bias as one row at the second region's entry. -/
theorem V5_bias : row (V5 m ρ c main_v27 : S1x128.Idx → EReal) = vec (m ((c : Thread nD τ).loc main_arg3)) := by
  obtain ⟨w3, -⟩ := W4_kept m ρ c
  have e : V5 m ρ c main_v27 = shapeCast S1x128 (m ((c : Thread nD τ).loc main_arg3)) shapeCasts_S128_S1x128 := by
    refine (s1_bias (W4 m ρ c)).trans ?_
    rw [w3]
  funext f
  show (V5 m ρ c main_v27 : S1x128.Idx → EReal) (ix2 (⟨0, Nat.one_pos⟩ : Fin 1) f) = _
  rw [e]
  exact LibTake.castRow_apply _ _ _ f

theorem V5_arg4 : V5 m ρ c main_arg4 = m ((c : Thread nD τ).loc main_arg4) := by
  obtain ⟨k4, -⟩ := kept1 (W4 m ρ c)
  obtain ⟨-, w4, -⟩ := W4_kept m ρ c
  exact k4.trans w4

/-- What the second stretch does not write is as launched. -/
theorem W5_kept :
    W5 m ρ c (Proc.devRef .tc main_arg5) = m ((c : Thread nD τ).loc main_arg5)
    ∧ W5 m ρ c (Proc.devRef .tc main_arg6) = m ((c : Thread nD τ).loc main_arg6)
    ∧ W5 m ρ c (Proc.devRef .tc main_arg7) = m ((c : Thread nD τ).loc main_arg7)
    ∧ W5 m ρ c (Proc.devRef .tc main_v3) = srcK m c
    ∧ W5 m ρ c (Proc.devRef .tc main_v6) = dstK m c := by
  obtain ⟨-, k5, k6, k7, k8, k9, -⟩ := kept1 (W4 m ρ c)
  obtain ⟨-, -, w5, w6, w7, w8, w9, -⟩ := W4_kept m ρ c
  exact ⟨k5.trans w5, k6.trans w6, k7.trans w7, k8.trans w8, k9.trans w9⟩

/-! ## The second region -/

/-- The first layer: the aggregate scaled by the target's factor, plus the bias, clipped at zero. -/
abbrev h1K : Fin 100000 → Fin 128 → EReal :=
  layerK (gK m c) (dinv (gK m c) oneW) (mat (m ((c : Thread nD τ).loc main_arg0))) (mat (m ((c : Thread nD τ).loc main_arg2)))
    (vec (m ((c : Thread nD τ).loc main_arg3)))

/-- The second region's output: the first layer times the second weight matrix, each row scaled by its node's factor. -/
theorem W6_v28 : mat (W6 m ρ c (Proc.devRef .tc main_v28) : S100000x128.Idx → EReal)
    = preK (dinv (gK m c) oneW) (h1K m c) (mat (m ((c : Thread nD τ).loc main_arg4))) := by
  have h : W6 m ρ c (Proc.devRef .tc main_v28) = (dat1 (V5 m ρ) c).arrAt 4 cfg1.N := W6_arr m ρ c 4
  funext n f
  show (W6 m ρ c (Proc.devRef .tc main_v28) : S100000x128.Idx → EReal) (ix2 n f) = _
  rw [h]
  refine (region1_arr (V5 m ρ) c n f).trans ?_
  rw [V5_col, V5_agg, V5_bias, V5_arg4]
  rfl

/-- What the second region does not write is as at its entry. -/
theorem W6_kept :
    W6 m ρ c (Proc.devRef .tc main_arg5) = m ((c : Thread nD τ).loc main_arg5)
    ∧ W6 m ρ c (Proc.devRef .tc main_arg6) = m ((c : Thread nD τ).loc main_arg6)
    ∧ W6 m ρ c (Proc.devRef .tc main_arg7) = m ((c : Thread nD τ).loc main_arg7)
    ∧ W6 m ρ c (Proc.devRef .tc main_v3) = srcK m c
    ∧ W6 m ρ c (Proc.devRef .tc main_v6) = dstK m c
    ∧ W6 m ρ c (Proc.devRef .tc main_v15) = W5 m ρ c (Proc.devRef .tc main_v15) := by
  obtain ⟨a5, a6, a7, a8, a9⟩ := W5_kept m ρ c
  exact ⟨(W6_of_ne m ρ c main_arg5 (by decide)).trans a5, (W6_of_ne m ρ c main_arg6 (by decide)).trans a6,
    (W6_of_ne m ρ c main_arg7 (by decide)).trans a7, (W6_of_ne m ρ c main_v3 (by decide)).trans a8,
    (W6_of_ne m ρ c main_v6 (by decide)).trans a9,
    (W6_arr m ρ c 1).trans (((dat1 (V5 m ρ) c).arrAt_in 1 rfl _).trans (A_eq1 (V5 m ρ) c 1))⟩

/-! ## Between the second and the third region -/

theorem V7_col : col (V7 m ρ c main_v15 : S100000x1.Idx → EReal) = dinv (gK m c) oneW := by
  obtain ⟨-, k15⟩ := kept2 (W6 m ρ c)
  obtain ⟨-, -, -, -, -, w15⟩ := W6_kept m ρ c
  have e : V7 m ρ c main_v15 = V5 m ρ c main_v15 := k15.trans w15
  rw [e]
  exact V5_col m ρ c

/-- The aggregate at the third region's entry: the second region's rows summed into the nodes their edges land on. -/
theorem V7_agg : mat (V7 m ρ c main_v38 : S100000x128.Idx → EReal)
    = aggK (gK m c) (preK (dinv (gK m c) oneW) (h1K m c) (mat (m ((c : Thread nD τ).loc main_arg4)))) := by
  obtain ⟨-, -, -, w3, w6, -⟩ := W6_kept m ρ c
  have e : V7 m ρ c main_v38 = aggOf (srcK m c) (dstK m c) (W6 m ρ c (Proc.devRef .tc main_v28)) := by
    refine (s2_agg (W6 m ρ c)).trans ?_
    rw [w3, w6]
  funext i f
  show (V7 m ρ c main_v38 : S100000x128.Idx → EReal) (ix2 i f) = _
  rw [e]
  refine (aggOf_apply (srcK m c) (dstK m c) _ i f).trans ?_
  rw [W6_v28]

theorem V7_bias : row (V7 m ρ c main_v39 : S1x128.Idx → EReal) = vec (m ((c : Thread nD τ).loc main_arg5)) := by
  obtain ⟨w5, -⟩ := W6_kept m ρ c
  have e : V7 m ρ c main_v39 = shapeCast S1x128 (m ((c : Thread nD τ).loc main_arg5)) shapeCasts_S128_S1x128 := by
    refine (s2_bias (W6 m ρ c)).trans ?_
    rw [w5]
  funext f
  show (V7 m ρ c main_v39 : S1x128.Idx → EReal) (ix2 (⟨0, Nat.one_pos⟩ : Fin 1) f) = _
  rw [e]
  exact LibTake.castRow_apply _ _ _ f

theorem V7_bias3 : row (V7 m ρ c main_v40 : S1x2.Idx → EReal) = vec (m ((c : Thread nD τ).loc main_arg7)) := by
  obtain ⟨-, -, w7, -⟩ := W6_kept m ρ c
  have e : V7 m ρ c main_v40 = shapeCast S1x2 (m ((c : Thread nD τ).loc main_arg7)) shapeCasts_S2_S1x2 := by
    refine (s2_bias3 (W6 m ρ c)).trans ?_
    rw [w7]
  funext f
  show (V7 m ρ c main_v40 : S1x2.Idx → EReal) (ix2 (⟨0, Nat.one_pos⟩ : Fin 1) f) = _
  rw [e]
  exact LibTake.castRow_apply _ _ _ f

theorem V7_arg6 : V7 m ρ c main_arg6 = m ((c : Thread nD τ).loc main_arg6) := by
  obtain ⟨k6, -⟩ := kept2 (W6 m ρ c)
  obtain ⟨-, w6, -⟩ := W6_kept m ρ c
  exact k6.trans w6

/-! ## The third region and the network -/

/-- THE RESULT ARRAY: the log-softmax of the logits of the two-layer network, of the launch memory. -/
theorem kernel_value (i : Fin 100000) (k : Fin 2) :
    (W8 m ρ c (Proc.devRef .tc main_v41) : S100000x2.Idx → EReal) (ix2 i k)
      = netK (gK m c) negInfW (dinv (gK m c) oneW)
          (mat (m ((c : Thread nD τ).loc main_arg0))) (mat (m ((c : Thread nD τ).loc main_arg2))) (vec (m ((c : Thread nD τ).loc main_arg3)))
          (mat (m ((c : Thread nD τ).loc main_arg4))) (vec (m ((c : Thread nD τ).loc main_arg5)))
          (mat (m ((c : Thread nD τ).loc main_arg6))) (vec (m ((c : Thread nD τ).loc main_arg7))) i k := by
  have h : W8 m ρ c (Proc.devRef .tc main_v41) = (dat2 (V7 m ρ) c).arrAt 5 cfg2.N := W8_arr m ρ c 5
  rw [h]
  refine (region2_arr (V7 m ρ) c i k).trans ?_
  rw [V7_col, V7_agg, V7_bias, V7_bias3, V7_arg6]
  rfl

end Cert.KernelIdeal.Fold

end
-- ==== Proof.RefLayers.lean ====
/-
  The idealized reference's two graph-convolution layers, read at an index in terms of the graph of its edge list.

  The reference first builds the vectors of source and target words (the given edges followed by one self-loop per
  node); the graph g is the graph of these two vectors. A node's degree is the scatter-add of ones at the target words
  into zeros, and its factor is the inverse square root of a positive degree, else zero. A layer multiplies its input by
  the weights, takes the product's rows at the source words, scales row e by the product of the factors taken at edge
  e's source and target words, scatter-adds the scaled rows at the target words into zeros, adds the bias, and clips at
  zero.
-/
import proofs.«114970_j5755256176696_2_alg».proof.Proof.RefReadPatched
import proofs.«114970_j5755256176696_2_alg».proof.Proof.Edges
import proofs.«114970_j5755256176696_2_alg».proof.Proof.LibTake

noncomputable section

open scoped BigOperators

namespace Cert.ReferenceIdeal.RefValue

open Cert.ReferenceIdeal Cert.ReferenceIdeal.Read Cert.Gcn Idealize.ShloMosaic Idealize.ShloMosaic.ValueIdx

/-- The graph of the reference's source and target words. -/
abbrev g (x1 : (⟨S2x1600000, .i32⟩ : BufTy).Contents (Elt Ideal)) : Graph 100000 1700000 :=
  graphW (val_main_v3 (F := Ideal) x1) (val_main_v6 (F := Ideal) x1)

/-- The float word of zero is 0. -/
theorem zeroW : FloatOps.ofBits (F := Ideal) .f32 0x00000000#32 = (0 : EReal) := Ideal.ofBits_zero_f32

/-! ## The degrees and the factors -/

/-- The scatter-add's index operand is the column of the target words. -/
theorem v9_eq (x1 : (⟨S2x1600000, .i32⟩ : BufTy).Contents (Elt Ideal)) :
    val_main_v9 (F := Ideal) x1 = colOf (val_main_v6 (F := Ideal) x1) := rfl

/-- Node n's degree: one per edge landing on n, summed from zero. -/
theorem ref_deg (x1 : (⟨S2x1600000, .i32⟩ : BufTy).Contents (Elt Ideal)) (n : Fin 100000) :
    val_main_v10 (F := Ideal) x1 (ix1 n) = deg (g x1) oneW n := by
  unfold val_main_v10
  rw [v9_eq]
  refine (addVec_dst (val_main_v3 (F := Ideal) x1) (val_main_v6 (F := Ideal) x1) _
    Facts₀.scatter_S100000_S1700000x1_S1700000_n_0_0_1_wf rfl _ _ n).trans ?_
  unfold deg
  rw [val_main_v8_apply, val_main_cst_0_apply, zeroW]
  refine congrArg (0 + ·) (Finset.sum_congr rfl fun e _ => ?_)
  rw [val_main_v7_apply, val_main_cst_apply]
  rfl

/-- Node n's factor: the inverse square root of a positive degree, else zero. -/
theorem ref_dinv (x1 : (⟨S2x1600000, .i32⟩ : BufTy).Contents (Elt Ideal)) (n : Fin 100000) :
    val_main_v14 (F := Ideal) x1 (ix1 n) = dinv (g x1) oneW n := by
  rw [val_main_v14_apply, val_main_v12_apply, val_main_v13_apply, ref_deg, val_main_v11_apply, val_main_cst_1_apply,
    val_main_call0_v1_apply, val_main_call0_v0_apply, val_main_cst_2_apply, zeroW, Ideal.cmpf_def,
    Ideal.hostUnary_rsqrt_def]
  unfold dinv Scalar.select Ideal.cmp
  by_cases h : (0 : EReal) < deg (g x1) oneW n
  · rw [if_pos h, if_pos (by simp [h])]
  · rw [if_neg h, if_neg (by simp [h])]

/-! ## One layer's stages over arbitrary arrays -/

open Cert.ReferenceIdeal.Facts₀

/-- A scalar word broadcast to any shape reads the word's value everywhere. -/
theorem bcast_const {t : Shape} (h : S_.BroadcastsInDim t (![] : Fin 0 → Fin t.rank)) (w : BitVec 32) (j : t.Idx) :
    broadcastInDim t ![] h (constant (F := Ideal) S_ .f32 w) j = Ideal.ofBits .f32 w := rfl

/-- A layer after its matrix product, as the reference spells it: over the product y, the factors dv, the bias b and
    the two vectors of index words, take y's rows at the source words, scale row e by the product of the factors taken
    at e's source and target words, scatter-add the rows at the target words into zeros, add the bias, clip at zero. -/
def layerArr (src dst : IVec S1700000 32) (dv : FVec Ideal S100000 .f32) (y : FVec Ideal S100000x128 .f32)
    (b : FVec Ideal S128 .f32) : FVec Ideal S100000x128 .f32 :=
  maximumf
    (addf
      (Host.scatterAdd scatter_S100000x128_S1700000x1_S1700000x128_1_0_0_1
        (broadcastInDim S100000x128 ![] bcast_S_S100000x128 (constant S_ .f32 0x00000000#32))
        (colOf dst)
        (mulf (Host.gather gather_S100000x128_S1700000x1_S1700000x128_1_0_n_n_0_1_1128 y (colOf (wrapV src)))
          (broadcastInDim S1700000x128 ![0, 1] bcast_S1700000x1_S1700000x128_0_1
            (broadcastInDim S1700000x1 ![0] bcast_S1700000_S1700000x1_0
              (mulf (Host.gather gather_S100000_S1700000x1_S1700000_n_0_n_n_0_1_1 dv (colOf (wrapV src)))
                (Host.gather gather_S100000_S1700000x1_S1700000_n_0_n_n_0_1_1 dv (colOf (wrapV dst))))))))
      (broadcastInDim S100000x128 ![0, 1] bcast_S1x128_S100000x128_0_1 (broadcastInDim S1x128 ![1] bcast_S128_S1x128_1 b)))
    (broadcastInDim S100000x128 ![] bcast_S_S100000x128 (constant S_ .f32 0x00000000#32))

variable (src dst : IVec S1700000 32) (dv : FVec Ideal S100000 .f32) (y : FVec Ideal S100000x128 .f32)
  (b : FVec Ideal S128 .f32)

/-- Edge e's message at column f: the taken row's entry times the product of the two taken factors. -/
theorem msg_apply (e : Fin 1700000) (f : Fin 128) :
    mulf (Host.gather gather_S100000x128_S1700000x1_S1700000x128_1_0_n_n_0_1_1128 y (colOf (wrapV src)))
        (broadcastInDim S1700000x128 ![0, 1] bcast_S1700000x1_S1700000x128_0_1
          (broadcastInDim S1700000x1 ![0] bcast_S1700000_S1700000x1_0
            (mulf (Host.gather gather_S100000_S1700000x1_S1700000_n_0_n_n_0_1_1 dv (colOf (wrapV src)))
              (Host.gather gather_S100000_S1700000x1_S1700000_n_0_n_n_0_1_1 dv (colOf (wrapV dst)))))) (ix2 e f)
      = msgR (graphW src dst) (vec dv) (mat y) e f := by
  unfold msgR normR mat vec
  rw [mulf_apply,
    takeRows_src src dst gather_S100000x128_S1700000x1_S1700000x128_1_0_n_n_0_1_1128
      gather_S100000x128_S1700000x1_S1700000x128_1_0_n_n_0_1_1128_wf rfl y e f,
    LibTake.bcastAcross_apply, LibTake.bcastCol_apply, mulf_apply,
    takeVec_src src dst gather_S100000_S1700000x1_S1700000_n_0_n_n_0_1_1
      gather_S100000_S1700000x1_S1700000_n_0_n_n_0_1_1_wf rfl dv e,
    takeVec_dst src dst gather_S100000_S1700000x1_S1700000_n_0_n_n_0_1_1
      gather_S100000_S1700000x1_S1700000_n_0_n_n_0_1_1_wf rfl dv e]

/-- THE LAYER READ AT AN INDEX: the messages of the edges landing on node i, summed from zero, plus the bias, clipped. -/
theorem layerArr_apply (i : Fin 100000) (f : Fin 128) :
    layerArr src dst dv y b (ix2 i f)
      = actR (aggR (graphW src dst) (msgR (graphW src dst) (vec dv) (mat y))) (vec b) i f := by
  unfold layerArr actR aggR
  rw [maximumf_apply, addf_apply,
    addRows_dst src dst scatter_S100000x128_S1700000x1_S1700000x128_1_0_0_1
      scatter_S100000x128_S1700000x1_S1700000x128_1_0_0_1_wf rfl _ _ i f,
    bcast_const, Ideal.ofBits_zero_f32, LibTake.bcastDown_apply, LibTake.bcastRow_apply]
  refine congrArg (fun t => max (0 + t + b (ix1 f)) 0) (Finset.sum_congr rfl fun e _ => ?_)
  exact msg_apply src dst dv y e f

/-! ## The two layers -/

/-- The factors, as a function of the node. -/
theorem v14_vec (x1 : (⟨S2x1600000, .i32⟩ : BufTy).Contents (Elt Ideal)) :
    vec (val_main_v14 (F := Ideal) x1) = dinv (g x1) oneW := funext (ref_dinv x1)

/-- The first layer's matrix product. -/
theorem v15_mat (x0 : (⟨S100000x128, .f32⟩ : BufTy).Contents (Elt Ideal)) (x2 : (⟨S128x128, .f32⟩ : BufTy).Contents (Elt Ideal)) :
    mat (val_main_v15 (F := Ideal) x0 x2) = lin (mat x0) (mat x2) := by
  funext i f
  unfold mat lin
  rw [val_main_v15_apply]
  refine Finset.sum_congr rfl fun k _ => ?_
  have el : lidx_main_v15 (ix2 i f) k = ix2 i k :=
    funext fun a => Fin.ext (by match a with | ⟨0, _⟩ => rfl | ⟨1, _⟩ => rfl)
  have er : ridx_main_v15 (ix2 i f) k = ix2 k f :=
    funext fun a => Fin.ext (by match a with | ⟨0, _⟩ => rfl | ⟨1, _⟩ => rfl)
  rw [el, er]

/-- The first layer's result is the layer's stages over the first matrix product, the factors and the first bias. -/
theorem v47_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) :
    val_main_v47 (F := Ideal) x0 x1 x2 x3
      = layerArr (val_main_v3 (F := Ideal) x1) (val_main_v6 (F := Ideal) x1) (val_main_v14 (F := Ideal) x1)
          (val_main_v15 (F := Ideal) x0 x2) x3 := rfl

/-- THE FIRST LAYER at node i, column f. -/
theorem ref_layer1 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (i : Fin 100000) (f : Fin 128) :
    val_main_v47 (F := Ideal) x0 x1 x2 x3 (ix2 i f)
      = layerR (g x1) (dinv (g x1) oneW) (mat x0) (mat x2) (vec x3) i f := by
  rw [v47_eq, layerArr_apply, v14_vec, v15_mat]
  rfl

/-- The second layer's matrix product, of the first layer's result. -/
theorem v48_mat (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    mat (val_main_v48 (F := Ideal) x0 x1 x2 x3 x4) = lin (mat (val_main_v47 (F := Ideal) x0 x1 x2 x3)) (mat x4) := by
  funext i f
  unfold mat lin
  rw [val_main_v48_apply]
  refine Finset.sum_congr rfl fun k _ => ?_
  have el : lidx_main_v48 (ix2 i f) k = ix2 i k :=
    funext fun a => Fin.ext (by match a with | ⟨0, _⟩ => rfl | ⟨1, _⟩ => rfl)
  have er : ridx_main_v48 (ix2 i f) k = ix2 k f :=
    funext fun a => Fin.ext (by match a with | ⟨0, _⟩ => rfl | ⟨1, _⟩ => rfl)
  rw [el, er]

/-- The second layer's result is the layer's stages over the second matrix product, the factors and the second bias. -/
theorem v80_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v80 (F := Ideal) x0 x1 x2 x3 x4 x5
      = layerArr (val_main_v3 (F := Ideal) x1) (val_main_v6 (F := Ideal) x1) (val_main_v14 (F := Ideal) x1)
          (val_main_v48 (F := Ideal) x0 x1 x2 x3 x4) x5 := rfl

/-- THE SECOND LAYER at node i, column f, over the first layer's result. -/
theorem ref_layer2 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (i : Fin 100000) (f : Fin 128) :
    val_main_v80 (F := Ideal) x0 x1 x2 x3 x4 x5 (ix2 i f)
      = layerR (g x1) (dinv (g x1) oneW) (mat (val_main_v47 (F := Ideal) x0 x1 x2 x3)) (mat x4) (vec x5) i f := by
  rw [v80_eq, layerArr_apply, v14_vec, v48_mat]
  rfl

end Cert.ReferenceIdeal.RefValue

end
-- ==== Proof.RefTail.lean ====
import proofs.«114970_j5755256176696_2_alg».proof.Proof.RefReadPatched
import proofs.«114970_j5755256176696_2_alg».proof.Proof.Views
import proofs.«114970_j5755256176696_2_alg».proof.Proof.LibSliceSum

/-!
  The last linear layer and the row-wise log-softmax of the reference program, read as mathematics.

  From the second layer's output t (an array of 100000 rows and 128 columns) the program forms the logits
  l(i, c) = Σ_k t(i, k) · W(k, c) + b(c), two per row, then m(i) = max(−∞, fold of max over row i from −∞),
  the shifted logits l(i, c) − m(i), their exponentials, the row sums 0 + Σ_c exp(l(i, c) − m(i)), the logarithm of
  each sum, and finally (l(i, c) − m(i)) − log(0 + Σ_c' exp(l(i, c') − m(i))). Each stage is read at an index from the
  stage before it; the broadcasts only repeat an entry along the new axis, so they disappear.
-/

noncomputable section

open scoped BigOperators

namespace Cert.ReferenceIdeal.RefValue

open Cert.ReferenceIdeal Cert.ReferenceIdeal.Read Cert.ReferenceIdeal.Gen Cert.Gcn Idealize.ShloMosaic Idealize.ShloMosaic.ValueIdx

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x2, .f32⟩ : BufTy).Contents (Elt Ideal)) (x7 : (⟨S2, .f32⟩ : BufTy).Contents (Elt Ideal))

/-- The logits: the second layer's output times the last weight matrix, plus the last bias. -/
def lg : Fin 100000 → Fin 2 → EReal :=
  logits (mat (val_main_v80 (F := Ideal) x0 x1 x2 x3 x4 x5)) (mat x6) (vec x7)

/-- The sum of the matrix product and the bias repeated down the rows is, at (i, k), the logit l(i, k). -/
theorem v84_at (i : Fin 100000) (k : Fin 2) :
    val_main_v84 (F := Ideal) x0 x1 x2 x3 x4 x5 x6 x7 (ix2 i k) = lg x0 x1 x2 x3 x4 x5 x6 x7 i k := by
  rw [val_main_v84_apply, val_main_v81_apply, val_main_v83_apply, val_main_v82_apply]
  have hl : ∀ k' : Fin 128, lidx_main_v81 (ix2 i k) k' = ix2 i k' := fun k' =>
    funext fun a => Fin.ext (by match a with | ⟨0, _⟩ => rfl | ⟨1, _⟩ => rfl)
  have hr : ∀ k' : Fin 128, ridx_main_v81 (ix2 i k) k' = ix2 k' k := fun k' =>
    funext fun a => Fin.ext (by match a with | ⟨0, _⟩ => rfl | ⟨1, _⟩ => rfl)
  have hb : idx_main_v82 (idx_main_v83 (ix2 i k)) = ix1 k :=
    funext fun a => Fin.ext (by match a with | ⟨0, _⟩ => rfl)
  unfold lg
  generalize val_main_v80 (F := Ideal) x0 x1 x2 x3 x4 x5 = t
  simp only [hl, hr, hb, logits, lin, mat, vec, Ideal.addf_def]

/-- A maximum over axis 1 of a 100000 × 2 array, folded from the word of −∞: at row i, the fold of max from −∞ over
    the row's two entries. -/
theorem rowMax_read (y : (⟨S100000x2, .f32⟩ : BufTy).Contents (Elt Ideal)) (i : Fin 100000) :
    Host.reduce (FloatOps.maximumf (F := Ideal) (φ := .f32)) y (val_main_call3_cst (F := Ideal)) reducesTo_S100000x2_S100000_d1 h_S_ (ix1 i)
      = rowMax negInfW (fun k : Fin 2 => y (ix2 i k)) := by
  have hR : S100000x2.Reduces [1] S100000 := by decide
  refine (Host.reduce_eq_fold_single (FloatOps.maximumf (F := Ideal) (φ := .f32)) y
    (val_main_call3_cst (F := Ideal)) reducesTo_S100000x2_S100000_d1 hR h_S_ (ix1 i)).trans ?_
  have hf : (y ∘ hR.lift (ix1 i)) = fun k : Fin 2 => y (ix2 i k) :=
    funext fun k => congrArg y (Cert.LibSliceSum.lift_cols hR i k)
  exact congrArg (fun f => Finset.fold max negInfW f (Finset.univ : Finset (Fin 2))) hf

/-- The maximum over each row, folded from −∞: at row i, the fold of max over the two logits of that row. -/
theorem v0_at (i : Fin 100000) :
    val_main_call3_v0 (F := Ideal) x0 x1 x2 x3 x4 x5 x6 x7 (ix1 i) = rowMax negInfW (lg x0 x1 x2 x3 x4 x5 x6 x7 i) := by
  unfold val_main_call3_v0
  refine (rowMax_read _ i).trans ?_
  exact congrArg (rowMax negInfW) (funext fun k => v84_at x0 x1 x2 x3 x4 x5 x6 x7 i k)

/-- The row's maximum joined with −∞ once more. -/
theorem v2_at (i : Fin 100000) :
    val_main_call3_v2 (F := Ideal) x0 x1 x2 x3 x4 x5 x6 x7 (ix1 i)
      = max negInfW (rowMax negInfW (lg x0 x1 x2 x3 x4 x5 x6 x7 i)) := by
  rw [val_main_call3_v2_apply, val_main_call3_v1_apply, val_main_call3_cst_0_apply, v0_at]
  generalize lg x0 x1 x2 x3 x4 x5 x6 x7 = l
  rfl

/-- The shifted logit: the logit minus its row's maximum, repeated across the row. -/
theorem v5_at (i : Fin 100000) (k : Fin 2) :
    val_main_call3_v5 (F := Ideal) x0 x1 x2 x3 x4 x5 x6 x7 (ix2 i k)
      = lg x0 x1 x2 x3 x4 x5 x6 x7 i k - max negInfW (rowMax negInfW (lg x0 x1 x2 x3 x4 x5 x6 x7 i)) := by
  rw [val_main_call3_v5_apply, val_main_call3_v4_apply, val_main_call3_v3_apply, v84_at]
  have h : idx_main_call3_v3 (idx_main_call3_v4 (ix2 i k)) = ix1 i :=
    funext fun a => Fin.ext (by match a with | ⟨0, _⟩ => rfl)
  rw [h, v2_at]
  generalize lg x0 x1 x2 x3 x4 x5 x6 x7 = l
  rfl

/-- The row sums of the exponentials of the shifted logits, summed from zero. -/
theorem v7_at (i : Fin 100000) :
    val_main_call3_v7 (F := Ideal) x0 x1 x2 x3 x4 x5 x6 x7 (ix1 i)
      = 0 + ∑ c' : Fin 2, Ideal.exp (lg x0 x1 x2 x3 x4 x5 x6 x7 i c'
          - max negInfW (rowMax negInfW (lg x0 x1 x2 x3 x4 x5 x6 x7 i))) := by
  rw [val_main_call3_v7_apply, val_main_call3_cst_1_apply]
  have h : ∀ c' : Fin 2, idx_main_call3_v7 (ix1 i) c' = ix2 i c' := fun c' =>
    funext fun a => Fin.ext (by match a with | ⟨0, _⟩ => rfl | ⟨1, _⟩ => rfl)
  have hs : ∀ c' : Fin 2, val_main_call3_v6 (F := Ideal) x0 x1 x2 x3 x4 x5 x6 x7 (idx_main_call3_v7 (ix1 i) c')
      = Ideal.exp (lg x0 x1 x2 x3 x4 x5 x6 x7 i c' - max negInfW (rowMax negInfW (lg x0 x1 x2 x3 x4 x5 x6 x7 i))) :=
    fun c' => by rw [h c', val_main_call3_v6_apply, v5_at, Ideal.hostUnary_exp_def]
  rw [Finset.sum_congr rfl fun c' _ => hs c', Ideal.ofBits_def, Ideal.ofBits_zero_f32]

/-- The result at (i, k): the shifted logit minus the logarithm of its row's sum of exponentials. -/
theorem ref_tail_lg (i : Fin 100000) (k : Fin 2) :
    val_main_v85 (F := Ideal) x0 x1 x2 x3 x4 x5 x6 x7 (ix2 i k) = lsmR negInfW (lg x0 x1 x2 x3 x4 x5 x6 x7 i) k := by
  rw [val_main_v85_apply, val_main_call3_v10_apply, val_main_call3_v9_apply, val_main_call3_v8_apply, v5_at]
  have h : idx_main_call3_v8 (idx_main_call3_v10 (ix2 i k)) = ix1 i :=
    funext fun a => Fin.ext (by match a with | ⟨0, _⟩ => rfl)
  rw [h, v7_at]
  generalize lg x0 x1 x2 x3 x4 x5 x6 x7 = l
  rfl

/-- THE TAIL OF THE REFERENCE: its result at (i, k) is the log-softmax, grouped as (l − m) − log Σ exp (l − m), of the
    logits of row i, the logits being the second layer's output times the last weights plus the last bias. -/
theorem ref_tail (i : Fin 100000) (k : Fin 2) :
    val_main_v85 (F := Ideal) x0 x1 x2 x3 x4 x5 x6 x7 (ix2 i k)
      = lsmR negInfW (logits (mat (val_main_v80 (F := Ideal) x0 x1 x2 x3 x4 x5)) (mat x6) (vec x7) i) k :=
  ref_tail_lg x0 x1 x2 x3 x4 x5 x6 x7 i k

end Cert.ReferenceIdeal.RefValue

end
-- ==== Proof.RefValue.lean ====
/-
  The idealized reference's whole value, read at an index: the row-wise log-softmax of the logits of the second
  graph-convolution layer applied to the first, over the graph of the reference's edge list and its nodes' factors.
  It is the tail (the last linear layer and the log-softmax over the second layer's result) composed with the two
  layers, each identified with the abstract layer as a function of the node and the column.
-/
import proofs.«114970_j5755256176696_2_alg».proof.Proof.RefLayers
import proofs.«114970_j5755256176696_2_alg».proof.Proof.RefTail

noncomputable section

namespace Cert.ReferenceIdeal.RefValue

open Cert.ReferenceIdeal Cert.ReferenceIdeal.Read Cert.Gcn Idealize.ShloMosaic Idealize.ShloMosaic.ValueIdx
/-- The first layer's result as a function of the node and the column. -/
theorem v47_mat (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) :
    mat (val_main_v47 (F := Ideal) x0 x1 x2 x3) = layerR (g x1) (dinv (g x1) oneW) (mat x0) (mat x2) (vec x3) :=
  funext fun i => funext fun f => ref_layer1 x0 x1 x2 x3 i f

/-- The second layer's result as a function of the node and the column: the abstract layer applied twice. -/
theorem v80_mat (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    mat (val_main_v80 (F := Ideal) x0 x1 x2 x3 x4 x5)
      = layerR (g x1) (dinv (g x1) oneW) (layerR (g x1) (dinv (g x1) oneW) (mat x0) (mat x2) (vec x3)) (mat x4) (vec x5) := by
  rw [← v47_mat x0 x1 x2 x3]
  exact funext fun i => funext fun f => ref_layer2 x0 x1 x2 x3 x4 x5 i f

/-- THE REFERENCE'S VALUE at node i, class k. -/
theorem ref_value (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x2, .f32⟩ : BufTy).Contents (Elt Ideal)) (x7 : (⟨S2, .f32⟩ : BufTy).Contents (Elt Ideal))
    (i : Fin 100000) (k : Fin 2) :
    val_main_v85 (F := Ideal) x0 x1 x2 x3 x4 x5 x6 x7 (ix2 i k)
      = netR (g x1) negInfW (dinv (g x1) oneW) (mat x0) (mat x2) (vec x3) (mat x4) (vec x5) (mat x6) (vec x7) i k := by
  rw [ref_tail, v80_mat]
  rfl

end Cert.ReferenceIdeal.RefValue

end
-- ==== Proof.Finite.lean ====
/-
  The precondition says every float input is finite: for each float input a, every entry x of a satisfies |x| < +∞, and the
  seven verdicts are joined by "and". On the extended reals |x| = max x (-x), so |x| < ⊤ excludes both ⊤ and ⊥: x is a real
  number. One lemma reads a single "all entries satisfy |x| < +∞" verdict back over an arbitrary shape; the theorem splits
  the conjunction of seven verdicts and applies it to each input.
-/
import proofs.«114970_j5755256176696_2_alg».proof.Pre_finite_inputs
import proofs.«114970_j5755256176696_2_alg».proof.Proof.LibReal
import Idealize.ShloMosaic.Lib.ReduceAll
import Idealize.ShloMosaic.Lib.ValueIdx
import Idealize.ShloMosaic.PureOps.Ideal.Laws

noncomputable section

namespace Cert.Finite

open Cert.Pre_finite_inputs Cert.LibReal Idealize.ShloMosaic

/-- The rank-0 shape has one index. -/
instance subsingleton_S_ : Subsingleton S_.Idx := ⟨fun a b => funext fun d => d.elim0⟩

/-- A one-bit word made from a Boolean is 1 exactly when the Boolean is true. -/
theorem ofBool_eq_one (b : Bool) : BitVec.ofBool b = 1#1 ↔ b = true := by cases b <;> decide

/-- The single-precision word 0x7F800000 denotes +∞. -/
theorem inf_word : Ideal.ofBits .f32 0x7F800000#32 = (⊤ : EReal) := by simp [Ideal.ofBits, Ideal.ieee]

/-- An extended real x with max x (-x) < ⊤ is a real number: ⊤ fails because max ⊤ _ = ⊤, and ⊥ fails because -⊥ = ⊤. -/
theorem isR_of_abs_lt_top (x : EReal) (h : max x (-x) < (⊤ : EReal)) : IsR x := by
  induction x using EReal.rec with
  | bot => exact absurd h (by simp)
  | coe r => exact ⟨r, rfl⟩
  | top => exact absurd h (by simp)

/-- The comparison |x| < +∞ at one entry: when its one-bit verdict is 1, x is a real number. -/
theorem isR_of_cmp (x : Ideal .f32)
    (h : FloatOps.cmpf .olt (FloatOps.hostAbsf x) (FloatOps.ofBits (F := Ideal) .f32 0x7F800000#32) = 1#1) : IsR x := by
  rw [Ideal.hostAbsf_def, Ideal.cmpf_def, Ideal.absf_def, Ideal.ofBits_def, inf_word] at h
  unfold Ideal.cmp at h
  rw [ofBool_eq_one] at h
  exact isR_of_abs_lt_top x (of_decide_eq_true h)

/-- One verdict read back: if "every entry x of a has |x| < +∞", reduced by "and" from 1 over all axes, is 1, then every
    entry of a is a real number. -/
theorem allR_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ValueIdx.ix0 = 1#1) :
    ∀ i, IsR (a i) := fun i =>
  isR_of_cmp (a i) (Host.reduce_andi_all _ _ hr hu ValueIdx.ix0 e i)

/-- The precondition makes every entry of every float input a real number. -/
theorem real_of_pre [Cert.Pre_finite_inputs.Facts]
    (a0 : FVec Ideal S100000x128 .f32) (a1 : IVec S2x1600000 32) (a2 : FVec Ideal S128x128 .f32) (a3 : FVec Ideal S128 .f32)
    (a4 : FVec Ideal S128x128 .f32) (a5 : FVec Ideal S128 .f32) (a6 : FVec Ideal S128x2 .f32) (a7 : FVec Ideal S2 .f32)
    (h : Cert.Pre_finite_inputs.fn (F := Ideal) a0 a1 a2 a3 a4 a5 a6 a7 = fun _ => 1#1) :
    (∀ i, IsR (a0 i)) ∧ (∀ i, IsR (a2 i)) ∧ (∀ i, IsR (a3 i)) ∧ (∀ i, IsR (a4 i)) ∧ (∀ i, IsR (a5 i)) ∧ (∀ i, IsR (a6 i))
      ∧ (∀ i, IsR (a7 i)) := by
  have e := congrFun h ValueIdx.ix0
  dsimp only [Cert.Pre_finite_inputs.fn, Cert.Pre_finite_inputs.fn_part1, andi] at e
  simp only [IntOp.andi_eq_one] at e
  obtain ⟨⟨⟨⟨⟨⟨e0, e2⟩, e3⟩, e4⟩, e5⟩, e6⟩, e7⟩ := e
  exact ⟨allR_of_all a0 _ _ _ e0, allR_of_all a2 _ _ _ e2, allR_of_all a3 _ _ _ e3, allR_of_all a4 _ _ _ e4,
    allR_of_all a5 _ _ _ e5, allR_of_all a6 _ _ _ e6, allR_of_all a7 _ _ _ e7⟩

end Cert.Finite

end
-- ==== Proof.lean ====
/-
  A two-layer graph convolution with symmetric normalization and a log-softmax head, as three fused kernels against
  its plain reference: the certificate.

  THE KERNEL scales the rows of x W₁ by the nodes' factors d inside its first kernel, lets the host take the scaled rows
  at the edges' sources and add them at their targets, and in the next kernel scales the sum by the target's factor, adds
  the bias, clips at zero and repeats with W₂; the third kernel ends with the last linear layer and
  l − (m + log Σ exp (l − m)), m the row's maximum. THE REFERENCE multiplies each taken row by the edge's product of the
  two factors before adding it, and ends with (l − m) − log Σ exp (l − m).

  At the ideal values (floats are extended reals, a change of float format is the identity, a matrix product into the
  zero accumulator is a plain sum) both are read as functions of the launch memory: the kernel's result through its
  three regions and the host stretches between them (the boundary fold of its frame), the reference's through its
  operations one at a time. Both read ONE graph off the edge list. The two networks are then one function: a factor is
  a nonnegative real, so it comes out of the sum over the edges landing on a node, with no condition on the summands;
  the two groupings of the log-softmax agree on real logits, and the logits are real because every input is finite —
  the one place the precondition is used.

  The frames of the two kernel programs are the generated ones; the reference's frame is its run with the result
  dropped; nothing was rewritten by the idealization, so there is nothing to preserve.
-/
import proofs.«114970_j5755256176696_2_alg».proof.Defs
import proofs.«114970_j5755256176696_2_alg».proof.Proof.Gen.Kernel
import proofs.«114970_j5755256176696_2_alg».proof.Proof.Gen.Kernel.Frame
import proofs.«114970_j5755256176696_2_alg».proof.Proof.Gen.KernelIdeal
import proofs.«114970_j5755256176696_2_alg».proof.Proof.Gen.KernelIdeal.Frame
import proofs.«114970_j5755256176696_2_alg».proof.Proof.Gen.ReferenceIdeal
import proofs.«114970_j5755256176696_2_alg».proof.Proof.Gen.Pre_finite_inputs
import proofs.«114970_j5755256176696_2_alg».proof.Proof.KernelRun
import proofs.«114970_j5755256176696_2_alg».proof.Proof.KernelValue
import proofs.«114970_j5755256176696_2_alg».proof.Proof.RefValue
import proofs.«114970_j5755256176696_2_alg».proof.Proof.Finite
import Idealize.ShloMosaic.Adequacy
import Idealize.ShloMosaic.Init

set_option maxRecDepth 16384

noncomputable section

open Idealize.ShloMosaic Idealize.ShloMosaic.TcCoe Idealize.ShloMosaic.ValueIdx Idealize.SL.Sem Cert.Gcn Cert.LibReal

namespace Cert.Proof

/-- The two programs read the same graph off one edge list: the same two vectors of index words. -/
theorem graph_eq (ei : IVec Cert.KernelIdeal.S2x1600000 32) :
    Cert.ReferenceIdeal.RefValue.g ei = graphW (Cert.KernelIdeal.Fold.srcOf ei) (Cert.KernelIdeal.Fold.dstOf ei) := rfl

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end, the kernel's result at the kernel-form network of the
    launch memory and the reference's at the reference-form network of the same arrays over the same graph; the
    inputs being finite, the two networks are one function. -/
theorem algebraic : Cert.algebraic_KernelIdeal_ReferenceIdeal := by
  intro m ρ m' ρ' hpre hagree
  refine ⟨fun c => Cert.KernelIdeal.Gen.W8 m ρ c (Proc.devRef .tc Cert.KernelIdeal.main_v41), Cert.KernelIdeal.Named.run (F := Ideal) m ρ, ?_⟩
  refine (θ_run Cert.ReferenceIdeal.defs _ _).mono (fun r h c => ⟨(h c).1.trans ?_, (h c).2⟩)
    (Cert.ReferenceIdeal.Value.run (F := Ideal) m' ρ')
  obtain ⟨e0, e1, e2, e3, e4, e5, e6, e7⟩ := hagree c
  obtain ⟨r0, r2, r3, r4, r5, r6, r7⟩ := Cert.Finite.real_of_pre _ _ _ _ _ _ _ _ (hpre c)
  rw [Cert.ReferenceIdeal.Read.val_main_v85_eq, e0, e1, e2, e3, e4, e5, e6, e7]
  funext j
  obtain ⟨i, k, rfl⟩ : ∃ (i : Fin 100000) (k : Fin 2), j = ix2 i k := ⟨j 0, j 1, eq_ix2 j⟩
  refine (Cert.ReferenceIdeal.RefValue.ref_value _ _ _ _ _ _ _ _ i k).trans ?_
  refine Eq.trans ?_ (Cert.KernelIdeal.Fold.kernel_value m ρ c i k).symm
  rw [graph_eq, negInfW_eq]
  have hd := fun n => dinv_nn (Cert.KernelIdeal.Fold.gK m c) oneW_nn n
  exact congrFun (congrFun (netR_eq_netK _ _ hd _ _ _ _ _ _ _ (fun n k => r0 _) (fun n k => r2 _) (fun n => r3 _)
    (fun n k => r4 _) (fun n => r5 _) (fun n k => r6 _) (fun n => r7 _)) i) k

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
